-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_arg5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S8 : Shape := ⟨1, ![8]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S8x4096 .f32) (main_arg1 : FVec F S8x4096 .f32) (main_arg2 : FVec F S8x4096 .f32) (main_arg3 : FVec F S8x4096 .f32) (main_arg4 : IVec S8x4096 1) (main_arg5 : IVec S8 32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S8x4096 : Shape := ⟨2, ![8, 4096]⟩
abbrev S8 : Shape := ⟨1, ![8]⟩
abbrev S8x512 : Shape := ⟨2, ![8, 512]⟩
abbrev S8x256 : Shape := ⟨2, ![8, 256]⟩
abbrev S8x512x1 : Shape := ⟨3, ![8, 512, 1]⟩
abbrev S8x1x256 : Shape := ⟨3, ![8, 1, 256]⟩
abbrev S8x512x256 : Shape := ⟨3, ![8, 512, 256]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S8x4096, .i1⟩
  | .hbm, ⟨5, _⟩ => ⟨S8, .i32⟩
  | .hbm, ⟨6, _⟩ => ⟨S8x4096, .i32⟩
  | .hbm, ⟨7, _⟩ => ⟨S8x4096, .i32⟩
  | .hbm, ⟨8, _⟩ => ⟨S_, .i32⟩
  | .hbm, ⟨9, _⟩ => ⟨S8x4096, .i32⟩
  | .hbm, ⟨10, _⟩ => ⟨S8x4096, .i1⟩
  | .hbm, ⟨11, _⟩ => ⟨S8x4096, .i1⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x4096, .f32⟩
  | .local _ .vmem, ⟨5, _⟩ => ⟨S8x4096, .f32⟩
  | .local _ .vmem, ⟨6, _⟩ => ⟨S8x512, .i32⟩
  | .local _ .vmem, ⟨7, _⟩ => ⟨S8x512, .i32⟩
  | .local _ .vmem, ⟨8, _⟩ => ⟨S8x512, .i32⟩
  | .local _ .vmem, ⟨9, _⟩ => ⟨S8x512, .i32⟩
  | .local _ .vmem, ⟨10, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v16 : BitVec 32 := Scalar.muli arg8 c1_i32_15
  let v17 : BitVec 32 := Scalar.addi c0_i32_16 v16
  let c256_i32 : BitVec 32 := 256#32
  let v18 : BitVec 32 := Scalar.muli v17 c256_i32
  v18
def k0_off1 (k0_t1 : Fin k0_t1_loop.trips) : Fin 2 → Nat :=
  let c0_17 : Index := 0#32
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v16 : BitVec 32 := Scalar.muli arg8 c1_i32_15
  let v17 : BitVec 32 := Scalar.addi c0_i32_16 v16
  let c256_i32 : BitVec 32 := 256#32
  let v18 : BitVec 32 := Scalar.muli v17 c256_i32
  let v19 : BitVec 32 := v18
  let v20 : Index := Scalar.indexCast v19
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  natLt_1_32 : 1 < 32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  h_S8x256 : 0 < S8x256.numel
  shapeCasts_S8x512_S8x512x1 : S8x512.ShapeCasts S8x512x1
  shapeCasts_S8x256_S8x1x256 : S8x256.ShapeCasts S8x1x256
  broadcasts_S8x512x1_S8x512x256 : S8x512x1.Broadcasts S8x512x256
  broadcasts_S8x1x256_S8x512x256 : S8x1x256.Broadcasts S8x512x256
  reduces_S8x512x256_S8x512 : S8x512x256.Reduces [2] S8x512
  bcast_S_S8x4096 : S_.BroadcastsInDim S8x4096 (![] : Fin 0 → Fin S8x4096.rank)
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x4096.size a
  hwx0_0 : ∀ i : grid0.Coords, EltTy.bits .f32 = 32 ∨ (Rect.block (s := S8x4096) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x4096.size a
  hwx0_1 : ∀ i : grid0.Coords, EltTy.bits .f32 = 32 ∨ (Rect.block (s := S8x4096) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x4096.size a
  hwx0_4 : ∀ i : grid0.Coords, EltTy.bits .i32 = 32 ∨ (Rect.block (s := S8x4096) S8x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x4096.size a
  hwx0_5 : ∀ i : grid0.Coords, EltTy.bits .i32 = 32 ∨ (Rect.block (s := S8x4096) S8x512.size (cc0_transform_5 i) (hinb0_5 i)).WholeWords (EltTy.packing .i32)

variable [Facts₀]

abbrev win0_0 : Pipeline.Window sig grid0 :=
  Pipeline.Window.ofSpec (Memref.whole main_arg2) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096 : Shape := ⟨2, ![8, 4096]⟩
abbrev S8 : Shape := ⟨1, ![8]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S8x4096, .i1⟩
  | .hbm, ⟨5, _⟩ => ⟨S8, .i32⟩
  | .hbm, ⟨6, _⟩ => ⟨S8x4096x1, .f32⟩
  | .hbm, ⟨7, _⟩ => ⟨S8x1x4096, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .i1⟩
  | .hbm, ⟨22, _⟩ => ⟨S8x4096x4096, .i32⟩
  | .hbm, ⟨23, _⟩ => ⟨S_, .i32⟩
  | .hbm, ⟨24, _⟩ => ⟨S8x4096, .i32⟩
  | .hbm, ⟨25, _⟩ => ⟨S_, .i32⟩
  | .hbm, ⟨26, _⟩ => ⟨S8x4096, .i32⟩
  | .hbm, ⟨27, _⟩ => ⟨S8x4096, .i1⟩
  | .hbm, ⟨28, _⟩ => ⟨S8x4096, .i1⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  natLt_1_32 : 1 < 32
  reducesTo_S8x4096x4096_S8x4096_d2 : S8x4096x4096.ReducesTo [2] S8x4096
  h_S_ : 0 < S_.numel
  bcast_S_S8x4096 : S_.BroadcastsInDim S8x4096 (![] : Fin 0 → Fin S8x4096.rank)

variable [Facts₀]

class Facts : Prop extends Facts₀ where

variable [Facts]
-- ==== Proof.Body.lean ====
/-
  The kernel body, run once at symbolic staging memrefs.

  One grid point: the count's running total (a scratch row block) is zeroed, the point's 512 query coordinates are
  loaded, sixteen tiles of 256 candidate coordinates are visited in a counted loop — each trip adds the tile's
  near-count to the running total —, and the kept mask (mask word nonzero, and total above eight) is stored as words
  into the output block.  The inputs are handed back as they were; the output block ends with pieces that are terms
  over the inputs' contents alone, found by the run; the scratch ends at something.
-/
import proofs.«133740_j27238682591584_2_alg».proof.Proof.Gen.KernelIdeal.Loops
import Idealize.ShloMosaic.Lib.Tactic
import Idealize.ShloMosaic.Lib.Pipeline.Kit
import Idealize.ShloMosaic.Lib.Pipeline.Frame

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The pieces the body's stores leave in the output block (terms over the five inputs' contents), WITH the proof
    that on whole staging memrefs — the inputs at their contents, the output and the scratch at anything — the body
    runs to its return, the inputs as they were, the output with those pieces written, the scratch at something. -/
noncomputable def kernelRun (c : Dev nD) (i : grid0.Coords)
    (arg1 : Memref sig .tc .vmem S8x512 .f32) (harg1 : arg1.IsWhole) (arg2 : Memref sig .tc .vmem S8x512 .f32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S8x512 .i32) (harg5 : arg5.IsWhole) (arg6 : Memref sig .tc .vmem S8x512 .i32) (harg6 : arg6.IsWhole)
    (arg7 : Memref sig .tc .vmem S8x512 .f32) (harg7 : arg7.IsWhole)
    (x1 : Vec F S8x512 .f32) (x2 : Vec F S8x512 .f32) (x3 : Vec F S8x4096 .f32) (x4 : Vec F S8x4096 .f32) (x5 : Vec F S8x512 .i32) :
    { L6 : List (View.Piece (Elt F) S8x512 .i32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} f)) -∗ K ⟨⟩))
          ⊢ wp frame (wpE (defs₀ (F := F)) Variants.none c none) E
              (cc0__radius_count_kernel i arg1 harg1 arg2 harg2 arg3 harg3 arg4 harg4 arg5 harg5 arg6 harg6 arg7 harg7) K } := by
  refine ⟨?_, fun E K => ?run⟩
  case run =>
    simp only [cc0__radius_count_kernel_eq_skeleton]; unfold cc0__radius_count_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1
    obtain rfl := harg2.eq_unread hf2
    obtain rfl := harg3.eq_unread hf3
    obtain rfl := harg4.eq_unread hf4
    obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Body

end
-- ==== Proof.Data.lean ====
/-
  The pipeline's proof data: what each window's staging block holds after the body at each grid point.

  The region is entered after one host operation (the mask widened to words).  The five input windows — the point's
  512 query columns of `x` and of `y`, all 4096 candidate columns of `x` and of `y` (the same two arrays again,
  fetched whole once), and the point's 512 mask words — are left by the body as it found them: each holds its array's
  block.  The output window holds what the body's stores leave, a function of those five blocks.  An array handed to
  two windows is held half by each.  Nothing is carried between points: the running total lives in scratch and is
  zeroed at every point.
-/
import proofs.«133740_j27238682591584_2_alg».proof.Proof.Body
import proofs.«133740_j27238682591584_2_alg».proof.Proof.Gen.KernelIdeal.Launch
import proofs.«133740_j27238682591584_2_alg».proof.Proof.Gen.KernelIdeal.Points
import Idealize.ShloMosaic.Lib.Pipeline.FrameBody
import Idealize.ShloMosaic.Lib.Pipeline.Regions

set_option maxRecDepth 16384

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main before the region -/

/-- Core `c`'s buffers at launch, as the host operations' valuation; -/
abbrev V₀ (c : Dev nD) : Valuation τ sig (Elt F) := fun b => m (c, b)
/-- and when the region is entered: the mask has been widened to words. -/
abbrev V (c : Dev nD) (b : Ref sig .tc) : Buf (Elt F) ((c : Thread nD τ).loc b) := StableHlo.after hostOps0 (V₀ m c) b

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0 (t : Fin cfg0.N) : Memref sig .tc .vmem S8x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x512 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x512 .i32 := win0_5.stage (cfg0.slots t 5)
abbrev hs5 (t : Fin cfg0.N) : (ms5 t).IsWhole := hstage0_5 ((cfg0.slots t 5).cast nbuf0_5)
/-- The scratch operand: a whole scoped buffer of the kernel's own. -/
abbrev scM : Memref sig .tc .vmem S8x512 .f32 := Memref.whole cc0_scratch0

/-- The pieces the body's stores leave in the output block at point `t`, over the five input blocks there. -/
def outPieces (c : Dev nD) (t : Fin cfg0.N) : List (View.Piece (Elt F) S8x512 .i32) :=
  (Body.kernelRun (F := F) c (grid0.coords t) (ms0 t) (hs0 t) (ms1 t) (hs1 t) (ms2 t) (hs2 t) (ms3 t) (hs3 t) (ms4 t) (hs4 t)
    (ms5 t) (hs5 t) scM (Memref.isWhole_whole _) (iblk m c 0 t) (iblk m c 1 t) (iblk m c 2 t) (iblk m c 3 t) (iblk m c 4 t)).1

/-- What the output block holds after the body at point `t`: the stores' payloads laid over one another. -/
def outBlk (c : Dev nD) (t : Fin cfg0.N) : S8x512.Idx → Elt F .i32 := View.canon (outPieces m c t)

/-! ## The proof data -/

/-- The proof data on core `c`: each array at its region-entry contents; after the body every input block as found,
    the output block at the stores' canon; the scoped rest and the generator register at anything between points;
    an array read through two windows held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
    | ⟨_ + 6, h⟩ => absurd h (Nat.not_lt.2 (Nat.le_add_left _ _))
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨_ + 6, h⟩ => absurd h (Nat.not_lt.2 (Nat.le_add_left _ _))
  owed _ := 0

end Cert.KernelIdeal.Hand

end
-- ==== Proof.Obligation.lean ====
/-
  The body obligation of the pipeline: at every grid point the kernel body, handed the six windows' staging blocks,
  the scratch and the generator register, runs to its return.

  The five input windows hold their arrays' blocks whenever the body runs — fetched at that point, or fetched
  earlier at an unchanged block index (the two whole-array windows are fetched at the first point only).  The output
  window is written back at every point, so it holds anything when the body starts; the body's one store covers the
  whole block, so what it leaves is the store's payload laid over nothing.  The scratch and the generator register
  ride in the invariant at contents not named.  The core owes nothing at any point.
-/
import proofs.«133740_j27238682591584_2_alg».proof.Proof.Data

set_option maxRecDepth 16384

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data, field by field -/

/-- The arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c t := by dsimp only [dats]

/-- Each input's current staging buffer holds its block at every point, fetched there or not: an input window whose
    body leaves the block in place, uncut and never idle; unfetched, its block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The output block -/

/-- The body's one store covers the output block: its rectangle is the whole block. -/
theorem outPieces_cover (c : Dev nD) (t : Fin cfg0.N) (y : S8x512.Idx) : ∃ p ∈ outPieces m c t, y ∈ p.1.set := by
  unfold outPieces Body.kernelRun
  dsimp only
  refine ⟨_, List.mem_singleton_self _, ?_⟩
  dsimp only
  rw [Rect.mem_set_unit]
  intro a
  have h := (y a).isLt
  fin_cases a <;> exact ⟨Nat.zero_le _, by simpa using h⟩

/-! ## The invariant -/

/-- The region invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point: the five inputs' buffers hold their blocks, the output's and the scratch anything; the
    body's run applies; the inputs come back as they were, the output at the canon of its one covering store, the
    scratch and the generator register at something again; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply ((Body.kernelRun (F := F) c (grid0.coords t) (ms0 t) (hs0 t) (ms1 t) (hs1 t) (ms2 t) (hs2 t) (ms3 t) (hs3 t) (ms4 t) (hs4 t)
    (ms5 t) (hs5 t) scM (Memref.isWhole_whole _) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%f5, H5⟩, ⟨%fs, HS⟩⟩
  isplitl [HS Hg]
  · isplitl [HS]
    · unfold owns; iexists _; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  unfold outBlk
  exact View.read_writes_eq_canon _ _ _ (outPieces_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Launch.lean ====
/-
  The launch: @main of the radius-count program run from any memory, by the pipeline library's theorem for a
  program given as a list of segments.

  @main is one host operation (the mask widened to words), the kernel region (a pipeline over eight grid points, six
  windows, one scratch), and four host operations (a zero constant, its broadcast, the region's result compared
  against it, the comparison copied).  The host operations run over the core's twelve unscoped buffers held whole at
  a valuation; the generator register and what the core owes ride beside them.  Two arrays are each read through two
  windows — a block window and a whole-array window —, so at the region's entry each is split in halves, one per
  window, and at its exit, where an input array holds what it held at entry, the halves are joined again; the mask
  words and the result go to their windows whole; the other eight buffers bypass the region.  The region's invariant
  is the scratch and the generator register at contents not named.  After the region the valuation is the entry
  valuation with the result's buffer at what the write-backs of all eight points leave.

  The conclusion: every weakly fair execution terminates; in every final state the six arguments are as launched
  (no host operation writes an argument, and the region writes its result only) and the last value is the four
  trailing operations' composed term at the result's final contents.
-/
import proofs.«133740_j27238682591584_2_alg».proof.Proof.Obligation

set_option maxRecDepth 16384

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-! ## The core's unscoped buffers, one by one -/

/-- One unscoped buffer of core `c`, whole, at contents `f`. -/
abbrev pt (c : Dev nD) (b : Ref sig .tc) (f : Buf (Elt F) ((c : Thread nD τ).loc b)) : sProp 𝕄 :=
  ((c : Thread nD τ).loc b) ↦{fullShare} f

/-- The twelve unscoped buffers held at a valuation, listed: @main's six arguments and its six values. -/
theorem held_ucRefs (c : Dev nD) (W : Valuation τ sig (Elt F)) :
    (StableHlo.held (c : Thread nD τ) (Pipeline.ucRefs τ sig) W : sProp 𝕄)
      = iprop(pt c main_arg0 (W main_arg0) ∗ pt c main_arg1 (W main_arg1) ∗ pt c main_arg2 (W main_arg2)
          ∗ pt c main_arg3 (W main_arg3) ∗ pt c main_arg4 (W main_arg4) ∗ pt c main_arg5 (W main_arg5)
          ∗ pt c main_v0 (W main_v0) ∗ pt c main_v1 (W main_v1) ∗ pt c main_c (W main_c)
          ∗ pt c main_v2 (W main_v2) ∗ pt c main_v3 (W main_v3) ∗ pt c main_v4 (W main_v4)) := by
  unfold StableHlo.held
  rw [bigSep_eq_bigSepL_of_eq [Proc.devRef .tc main_arg0, Proc.devRef .tc main_arg1, Proc.devRef .tc main_arg2,
    Proc.devRef .tc main_arg3, Proc.devRef .tc main_arg4, Proc.devRef .tc main_arg5, Proc.devRef .tc main_v0,
    Proc.devRef .tc main_v1, Proc.devRef .tc main_c, Proc.devRef .tc main_v2, Proc.devRef .tc main_v3,
    Proc.devRef .tc main_v4] (by decide) (by decide)]
  rfl

/-! ## The windows' arrays, one by one -/

/-- The six windows' arrays at contents `Fa`: the two arrays read through two windows each are held half by each
    window; the mask words and the result are held whole. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg2) ↦{fullShare.left} Fa 0) ∗ (((c : Thread nD τ).loc main_arg1) ↦{fullShare.left} Fa 1)
          ∗ (((c : Thread nD τ).loc main_arg2) ↦{fullShare.right} Fa 2) ∗ (((c : Thread nD τ).loc main_arg1) ↦{fullShare.right} Fa 3)
          ∗ (((c : Thread nD τ).loc main_v0) ↦{fullShare} Fa 4) ∗ (((c : Thread nD τ).loc main_v1) ↦{fullShare} Fa 5)) := by
  unfold Dat.arrays
  rw [bigSep_W0, (arr_whole0 0).set_eq_univ, (arr_whole0 1).set_eq_univ, (arr_whole0 4).set_eq_univ, (arr_whole0 5).set_eq_univ]
  rfl

/-- An array at the region's entry, as the proof data names it, is the entry valuation's. -/
theorem arrAt_zero (c : Dev nD) (w : Fin cfg0.W) : (dats m 0 c).arrAt w 0 = V m c (Pipeline.arrRef spec0 w) := by
  rw [show (dats m 0 c).arrAt w 0 = (dats m 0 c).A w from rfl, A_eq]

/-- An input window's array is never written: at the region's exit it holds what it held at entry. -/
theorem arrAt_in0 (c : Dev nD) (n : ℕ) : (dats m 0 c).arrAt 0 n = V m c (Pipeline.arrRef spec0 0) := by
  rw [(dats m 0 c).arrAt_in 0 rfl n, A_eq]
theorem arrAt_in1 (c : Dev nD) (n : ℕ) : (dats m 0 c).arrAt 1 n = V m c (Pipeline.arrRef spec0 1) := by
  rw [(dats m 0 c).arrAt_in 1 rfl n, A_eq]
theorem arrAt_in2 (c : Dev nD) (n : ℕ) : (dats m 0 c).arrAt 2 n = V m c (Pipeline.arrRef spec0 2) := by
  rw [(dats m 0 c).arrAt_in 2 rfl n, A_eq]
theorem arrAt_in3 (c : Dev nD) (n : ℕ) : (dats m 0 c).arrAt 3 n = V m c (Pipeline.arrRef spec0 3) := by
  rw [(dats m 0 c).arrAt_in 3 rfl n, A_eq]
theorem arrAt_in4 (c : Dev nD) (n : ℕ) : (dats m 0 c).arrAt 4 n = V m c (Pipeline.arrRef spec0 4) := by
  rw [(dats m 0 c).arrAt_in 4 rfl n, A_eq]

/-! ## @main after the region -/

/-- Core `c`'s buffers when the region is left: the result's buffer at what the write-backs of all eight points
    leave, every other buffer as the region found it. -/
def Wv (c : Dev nD) : Valuation τ sig (Elt F) :=
  Function.update (StableHlo.after hostOps0 (V₀ m c)) (Proc.devRef .tc main_v1) ((dats m 0 c).arrAt 5 cfg0.N)

theorem Wv_v1 (c : Dev nD) : Wv m c (Proc.devRef .tc main_v1) = (dats m 0 c).arrAt 5 cfg0.N := Function.update_self ..
theorem Wv_ne (c : Dev nD) (b : Ref sig .tc) (h : b ≠ main_v1) : Wv m c (Proc.devRef .tc b) = V m c b :=
  Function.update_of_ne (StableHlo.devRef_ne_of_ne h) ..

/-- The composed value of the four operations after the region at the last of them, over the result's contents `z`:
    the result compared, word by word, against zero. -/
def tailVal (z : (⟨S8x4096, .i32⟩ : BufTy).Contents (Elt F)) : (⟨S8x4096, .i1⟩ : BufTy).Contents (Elt F) :=
  id (cmpi .ne z (broadcastInDim S8x4096 ![] bcast_S_S8x4096 (constantI S_ 32 0#32)))

/-- The operation before the region writes the widened mask only; -/
theorem not_written0 (b : Ref sig .tc) (hb : b ≠ main_v0) : ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

/-- the four after it write the constant, its broadcast, the comparison and its copy only. -/
theorem not_written1 (b : Ref sig .tc) (hb : b ≠ main_c ∧ b ≠ main_v2 ∧ b ≠ main_v3 ∧ b ≠ main_v4) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- An argument reaches the end as launched: no operation writes it, and the region writes its result only. -/
theorem final_arg (c : Dev nD) (b : Ref sig .tc)
    (hb : b ≠ main_v0 ∧ b ≠ main_v1 ∧ b ≠ main_c ∧ b ≠ main_v2 ∧ b ≠ main_v3 ∧ b ≠ main_v4) :
    StableHlo.after hostOps1 (Wv m c) (Proc.devRef .tc b) = m ((c : Thread nD τ).loc b) := by
  obtain ⟨h0, h1, h⟩ := hb
  rw [StableHlo.after_of_forall_not_mem (b := Proc.devRef .tc b) hostOps1 (Wv m c) (not_written1 b h), Wv_ne m c b h1]
  exact StableHlo.after_of_forall_not_mem (b := Proc.devRef .tc b) hostOps0 (V₀ m c) (not_written0 b h0)

/-- The last value is the tail's composed term at the result's final contents. -/
theorem final_v4 (c : Dev nD) :
    StableHlo.after hostOps1 (Wv m c) (Proc.devRef .tc main_v4) = tailVal ((dats m 0 c).arrAt 5 cfg0.N) := by
  unfold tailVal
  rw [← Wv_v1 m c]
  after_results

/-! ## The launch, by the library: @main as segments -/

/-- What rides beside the buffers through the host operations: the generator register at some state and the core's
    `owes`. -/
abbrev R (c : Dev nD) : sProp 𝕄 :=
  iprop((∃ r, prngReg c r) ∗ ∃ W, owes (c : Thread nD τ) (0 : CellTallies nD τ sig Unit) W)

/-- THE HOST SEGMENT BEFORE THE REGION: the mask widened to words, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- What bypasses the region: the unscoped buffers that are no window's array, as the region is entered. -/
abbrev Zc (c : Dev nD) : sProp 𝕄 :=
  iprop(pt c main_arg0 (V m c main_arg0) ∗ pt c main_arg3 (V m c main_arg3) ∗ pt c main_arg4 (V m c main_arg4)
    ∗ pt c main_arg5 (V m c main_arg5) ∗ pt c main_c (V m c main_c) ∗ pt c main_v2 (V m c main_v2)
    ∗ pt c main_v3 (V m c main_v3) ∗ pt c main_v4 (V m c main_v4))

set_option backward.isDefEq.respectTransparency.types false in
/-- THE REGION.  Entered from what `seg0` left: each of the two arrays read through two windows is split in halves,
    one per window; the mask words and the result go to their windows whole; the generator register enters the
    invariant; the eight other buffers bypass.  Left with the halves rejoined, the result at its final contents. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (Wv m c) ∗ R c)
  X c := iprop(∃ r, prngReg c r)
  Y c := iprop(∃ r, prngReg c r)
  Z c := Zc m c
  hentry c := by
    rw [held_ucRefs, arrays_chain]
    simp only [arrAt_zero]
    iintro ⟨⟨⟨H0, H1, H2, H3, H4, H5, Hv0, Hv1, Hc, Hv2, Hv3, Hv4⟩, Hg, HO⟩, -, -⟩
    ihave H1 := (pointsTo_share (PosShare.mem_left_op_right fullShare)).1 $$ H1
    icases H1 with ⟨H1l, H1r⟩
    ihave H2 := (pointsTo_share (PosShare.mem_left_op_right fullShare)).1 $$ H2
    icases H2 with ⟨H2l, H2r⟩
    imodintro
    isplitl [H1l H1r H2l H2r Hv0 Hv1]
    · isplitl [H2l]; · iexact H2l
      isplitl [H1l]; · iexact H1l
      isplitl [H2r]; · iexact H2r
      isplitl [H1r]; · iexact H1r
      isplitl [Hv0]; · iexact Hv0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    isplitl [H0]; · iexact H0
    isplitl [H3]; · iexact H3
    isplitl [H4]; · iexact H4
    isplitl [H5]; · iexact H5
    isplitl [Hc]; · iexact Hc
    isplitl [Hv2]; · iexact Hv2
    isplitl [Hv3]; · iexact Hv3
    iexact Hv4
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = Pipeline.ΦA spec0 c from rfl]; unfold Pipeline.ΦA
    iintro ⟨Hr, Hg⟩
    isplitl [Hg]; · iexact Hg
    isplitr; · iempintro
    iexact Hr
  hexit c := by
    rw [held_ucRefs, arrays_chain]
    simp only [arrAt_in0, arrAt_in1, arrAt_in2, arrAt_in3, arrAt_in4]
    rw [Wv_v1, Wv_ne m c main_arg0 (by decide), Wv_ne m c main_arg1 (by decide), Wv_ne m c main_arg2 (by decide),
      Wv_ne m c main_arg3 (by decide), Wv_ne m c main_arg4 (by decide), Wv_ne m c main_arg5 (by decide),
      Wv_ne m c main_v0 (by decide), Wv_ne m c main_c (by decide), Wv_ne m c main_v2 (by decide),
      Wv_ne m c main_v3 (by decide), Wv_ne m c main_v4 (by decide)]
    iintro ⟨⟨H2l, H1l, H2r, H1r, Hv0, Hv1⟩, HO, Hg, ⟨H0, H3, H4, H5, Hc, Hv2, Hv3, Hv4⟩⟩
    ihave H2 := (pointsTo_share (PosShare.mem_left_op_right fullShare)).2 $$ [H2l H2r]
    · isplitl [H2l] <;> iassumption
    ihave H1 := (pointsTo_share (PosShare.mem_left_op_right fullShare)).2 $$ [H1l H1r]
    · isplitl [H1l] <;> iassumption
    imodintro
    isplitr [Hg HO]
    · isplitl [H0]; · iexact H0
      isplitl [H1]; · iexact H1
      isplitl [H2]; · iexact H2
      isplitl [H3]; · iexact H3
      isplitl [H4]; · iexact H4
      isplitl [H5]; · iexact H5
      isplitl [Hv0]; · iexact Hv0
      isplitl [Hv1]; · iexact Hv1
      isplitl [Hc]; · iexact Hc
      isplitl [Hv2]; · iexact Hv2
      isplitl [Hv3]; · iexact Hv3
      iexact Hv4
    · isplitl [Hg]; · iexact Hg
      unfold Pipeline.Dat.owesAt Pipeline.owesWithin
      icases HO with ⟨%W, -, HO⟩; iexists W; iexact HO

/-- THE HOST SEGMENT AFTER THE REGION: the zero constant, its broadcast, the result compared against it, the
    comparison copied; over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (Wv m) R

/-- @main as the list of the three. -/
abbrev segs : List (Pipeline.Seg (pcfgs (F := F)) adm (dats m) () defs₀ 𝒱₀ L lv) :=
  [.host (seg0 m), .region (reg0 m), .host (seg1 m)]

/-- The last thread state: every unscoped buffer as the four operations after the region leave it, the generator
    register at some state. -/
abbrev Tₙ (c : Dev nD) : sProp 𝕄 :=
  iprop(StableHlo.held (c : Thread nD τ) (Pipeline.ucRefs τ sig) (StableHlo.after hostOps1 (Wv m c)) ∗ ∃ r, prngReg c r)

set_option backward.isDefEq.respectTransparency.types false in
/-- At the compiled mesh, for any float values, from any memory with zero counters: every weakly fair execution of
    @main on the TensorCores terminates, and every final state has the six arguments as launched and the last value
    at the comparison of the region's result — as the write-backs of all eight points leave it — against zero. -/
theorem run_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = tailVal ((dats m 0 c).arrAt 5 cfg0.N)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      refine (show (ownU _ : sProp 𝕄) ⊢ BI.own (EP (initOf (Pipeline.cells (Pipeline.pin (pcfgs (F := F)) adm) cellOf_inj)
        (Pipeline.launchToks (Pipeline.pin (pcfgs (F := F)) adm) cellOf_inj))) from .rfl).trans ?_
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := by
      refine ⟨fun _ => .rfl, fun _ => .rfl, fun _ => .rfl, fun c => ?_⟩
      show iprop(StableHlo.held (c : Thread nD τ) (Pipeline.ucRefs τ sig) (StableHlo.after hostOps1 (Wv m c)) ∗ R c)
        ⊢ iprop(Tₙ m c ∗ ∃ W, owes (c : Thread nD τ) (0 : CellTallies nD τ sig Unit) W)
      iintro ⟨Hh, Hg, HO⟩
      isplitr [HO]
      · isplitl [Hh] <;> iassumption
      · iexact HO)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hg, -⟩, -⟩
      imodintro
      isplitl [Hh]; · iexact Hh
      isplitl [Hg]; · iexists _; iexact Hg
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_v4) = tailVal ((dats m 0 c).arrAt 5 cfg0.N))
    (hfin := fun c s' => by
      dsimp only [Tₙ]
      rw [held_ucRefs, final_arg m c main_arg0 (by decide), final_arg m c main_arg1 (by decide), final_arg m c main_arg2 (by decide),
        final_arg m c main_arg3 (by decide), final_arg m c main_arg4 (by decide), final_arg m c main_arg5 (by decide), final_v4]
      iintro ⟨⟨⟨H0, H1, H2, H3, H4, H5, -, -, -, -, -, Hv4⟩, -⟩, HSI⟩
      icombine HSI H0 gives %h0
      icombine HSI H1 gives %h1
      icombine HSI H2 gives %h2
      icombine HSI H3 gives %h3
      icombine HSI H4 gives %h4
      icombine HSI H5 gives %h5
      icombine HSI Hv4 gives %hv4
      imodintro
      isplitr
      · ipureintro
        exact ⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ hv4⟩
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.BodyK.lean ====
/-
  The kernel body, run once at symbolic staging memrefs.

  One grid point: the count's running total (a scratch row block) is zeroed, the point's 512 query coordinates are
  loaded, sixteen tiles of 256 candidate coordinates are visited in a counted loop — each trip adds the tile's
  near-count to the running total —, and the kept mask (mask word nonzero, and total above eight) is stored as words
  into the output block.  The inputs are handed back as they were; the output block ends with pieces that are terms
  over the inputs' contents alone, found by the run; the scratch ends at something.
-/
import proofs.«133740_j27238682591584_2_alg».proof.Proof.Gen.Kernel.Loops
import Idealize.ShloMosaic.Lib.Tactic
import Idealize.ShloMosaic.Lib.Pipeline.Kit
import Idealize.ShloMosaic.Lib.Pipeline.Frame

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The pieces the body's stores leave in the output block (terms over the five inputs' contents), WITH the proof
    that on whole staging memrefs — the inputs at their contents, the output and the scratch at anything — the body
    runs to its return, the inputs as they were, the output with those pieces written, the scratch at something. -/
noncomputable def kernelRun (c : Dev nD) (i : grid0.Coords)
    (arg1 : Memref sig .tc .vmem S8x512 .f32) (harg1 : arg1.IsWhole) (arg2 : Memref sig .tc .vmem S8x512 .f32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S8x512 .i32) (harg5 : arg5.IsWhole) (arg6 : Memref sig .tc .vmem S8x512 .i32) (harg6 : arg6.IsWhole)
    (arg7 : Memref sig .tc .vmem S8x512 .f32) (harg7 : arg7.IsWhole)
    (x1 : Vec F S8x512 .f32) (x2 : Vec F S8x512 .f32) (x3 : Vec F S8x4096 .f32) (x4 : Vec F S8x4096 .f32) (x5 : Vec F S8x512 .i32) :
    { L6 : List (View.Piece (Elt F) S8x512 .i32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} f)) -∗ K ⟨⟩))
          ⊢ wp frame (wpE (defs₀ (F := F)) Variants.none c none) E
              (cc0__radius_count_kernel i arg1 harg1 arg2 harg2 arg3 harg3 arg4 harg4 arg5 harg5 arg6 harg6 arg7 harg7) K } := by
  refine ⟨?_, fun E K => ?run⟩
  case run =>
    simp only [cc0__radius_count_kernel_eq_skeleton]; unfold cc0__radius_count_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1
    obtain rfl := harg2.eq_unread hf2
    obtain rfl := harg3.eq_unread hf3
    obtain rfl := harg4.eq_unread hf4
    obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Body

end
-- ==== Proof.DataK.lean ====
/-
  The pipeline's proof data: what each window's staging block holds after the body at each grid point.

  The region is entered after one host operation (the mask widened to words).  The five input windows — the point's
  512 query columns of `x` and of `y`, all 4096 candidate columns of `x` and of `y` (the same two arrays again,
  fetched whole once), and the point's 512 mask words — are left by the body as it found them: each holds its array's
  block.  The output window holds what the body's stores leave, a function of those five blocks.  An array handed to
  two windows is held half by each.  Nothing is carried between points: the running total lives in scratch and is
  zeroed at every point.
-/
import proofs.«133740_j27238682591584_2_alg».proof.Proof.BodyK
import proofs.«133740_j27238682591584_2_alg».proof.Proof.Gen.Kernel.Launch
import proofs.«133740_j27238682591584_2_alg».proof.Proof.Gen.Kernel.Points
import Idealize.ShloMosaic.Lib.Pipeline.FrameBody
import Idealize.ShloMosaic.Lib.Pipeline.Regions

set_option maxRecDepth 16384

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main before the region -/

/-- Core `c`'s buffers at launch, as the host operations' valuation; -/
abbrev V₀ (c : Dev nD) : Valuation τ sig (Elt F) := fun b => m (c, b)
/-- and when the region is entered: the mask has been widened to words. -/
abbrev V (c : Dev nD) (b : Ref sig .tc) : Buf (Elt F) ((c : Thread nD τ).loc b) := StableHlo.after hostOps0 (V₀ m c) b

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0 (t : Fin cfg0.N) : Memref sig .tc .vmem S8x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x512 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x512 .i32 := win0_5.stage (cfg0.slots t 5)
abbrev hs5 (t : Fin cfg0.N) : (ms5 t).IsWhole := hstage0_5 ((cfg0.slots t 5).cast nbuf0_5)
/-- The scratch operand: a whole scoped buffer of the kernel's own. -/
abbrev scM : Memref sig .tc .vmem S8x512 .f32 := Memref.whole cc0_scratch0

/-- The pieces the body's stores leave in the output block at point `t`, over the five input blocks there. -/
def outPieces (c : Dev nD) (t : Fin cfg0.N) : List (View.Piece (Elt F) S8x512 .i32) :=
  (Body.kernelRun (F := F) c (grid0.coords t) (ms0 t) (hs0 t) (ms1 t) (hs1 t) (ms2 t) (hs2 t) (ms3 t) (hs3 t) (ms4 t) (hs4 t)
    (ms5 t) (hs5 t) scM (Memref.isWhole_whole _) (iblk m c 0 t) (iblk m c 1 t) (iblk m c 2 t) (iblk m c 3 t) (iblk m c 4 t)).1

/-- What the output block holds after the body at point `t`: the stores' payloads laid over one another. -/
def outBlk (c : Dev nD) (t : Fin cfg0.N) : S8x512.Idx → Elt F .i32 := View.canon (outPieces m c t)

/-! ## The proof data -/

/-- The proof data on core `c`: each array at its region-entry contents; after the body every input block as found,
    the output block at the stores' canon; the scoped rest and the generator register at anything between points;
    an array read through two windows held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
    | ⟨_ + 6, h⟩ => absurd h (Nat.not_lt.2 (Nat.le_add_left _ _))
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨_ + 6, h⟩ => absurd h (Nat.not_lt.2 (Nat.le_add_left _ _))
  owed _ := 0

end Cert.Kernel.Hand

end
-- ==== Proof.ObligationK.lean ====
/-
  The body obligation of the pipeline: at every grid point the kernel body, handed the six windows' staging blocks,
  the scratch and the generator register, runs to its return.

  The five input windows hold their arrays' blocks whenever the body runs — fetched at that point, or fetched
  earlier at an unchanged block index (the two whole-array windows are fetched at the first point only).  The output
  window is written back at every point, so it holds anything when the body starts; the body's one store covers the
  whole block, so what it leaves is the store's payload laid over nothing.  The scratch and the generator register
  ride in the invariant at contents not named.  The core owes nothing at any point.
-/
import proofs.«133740_j27238682591584_2_alg».proof.Proof.DataK

set_option maxRecDepth 16384

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data, field by field -/

/-- The arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c t := by dsimp only [dats]

/-- Each input's current staging buffer holds its block at every point, fetched there or not: an input window whose
    body leaves the block in place, uncut and never idle; unfetched, its block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The output block -/

/-- The body's one store covers the output block: its rectangle is the whole block. -/
theorem outPieces_cover (c : Dev nD) (t : Fin cfg0.N) (y : S8x512.Idx) : ∃ p ∈ outPieces m c t, y ∈ p.1.set := by
  unfold outPieces Body.kernelRun
  dsimp only
  refine ⟨_, List.mem_singleton_self _, ?_⟩
  dsimp only
  rw [Rect.mem_set_unit]
  intro a
  have h := (y a).isLt
  fin_cases a <;> exact ⟨Nat.zero_le _, by simpa using h⟩

/-! ## The invariant -/

/-- The region invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point: the five inputs' buffers hold their blocks, the output's and the scratch anything; the
    body's run applies; the inputs come back as they were, the output at the canon of its one covering store, the
    scratch and the generator register at something again; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply ((Body.kernelRun (F := F) c (grid0.coords t) (ms0 t) (hs0 t) (ms1 t) (hs1 t) (ms2 t) (hs2 t) (ms3 t) (hs3 t) (ms4 t) (hs4 t)
    (ms5 t) (hs5 t) scM (Memref.isWhole_whole _) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%f5, H5⟩, ⟨%fs, HS⟩⟩
  isplitl [HS Hg]
  · isplitl [HS]
    · unfold owns; iexists _; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  unfold outBlk
  exact View.read_writes_eq_canon _ _ _ (outPieces_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchK.lean ====
/-
  The launch: @main of the radius-count program run from any memory, by the pipeline library's theorem for a
  program given as a list of segments.

  @main is one host operation (the mask widened to words), the kernel region (a pipeline over eight grid points, six
  windows, one scratch), and four host operations (a zero constant, its broadcast, the region's result compared
  against it, the comparison copied).  The host operations run over the core's twelve unscoped buffers held whole at
  a valuation; the generator register and what the core owes ride beside them.  Two arrays are each read through two
  windows — a block window and a whole-array window —, so at the region's entry each is split in halves, one per
  window, and at its exit, where an input array holds what it held at entry, the halves are joined again; the mask
  words and the result go to their windows whole; the other eight buffers bypass the region.  The region's invariant
  is the scratch and the generator register at contents not named.  After the region the valuation is the entry
  valuation with the result's buffer at what the write-backs of all eight points leave.

  The conclusion: every weakly fair execution terminates; in every final state the six arguments are as launched
  (no host operation writes an argument, and the region writes its result only) and the last value is the four
  trailing operations' composed term at the result's final contents.
-/
import proofs.«133740_j27238682591584_2_alg».proof.Proof.ObligationK

set_option maxRecDepth 16384

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-! ## The core's unscoped buffers, one by one -/

/-- One unscoped buffer of core `c`, whole, at contents `f`. -/
abbrev pt (c : Dev nD) (b : Ref sig .tc) (f : Buf (Elt F) ((c : Thread nD τ).loc b)) : sProp 𝕄 :=
  ((c : Thread nD τ).loc b) ↦{fullShare} f

/-- The twelve unscoped buffers held at a valuation, listed: @main's six arguments and its six values. -/
theorem held_ucRefs (c : Dev nD) (W : Valuation τ sig (Elt F)) :
    (StableHlo.held (c : Thread nD τ) (Pipeline.ucRefs τ sig) W : sProp 𝕄)
      = iprop(pt c main_arg0 (W main_arg0) ∗ pt c main_arg1 (W main_arg1) ∗ pt c main_arg2 (W main_arg2)
          ∗ pt c main_arg3 (W main_arg3) ∗ pt c main_arg4 (W main_arg4) ∗ pt c main_arg5 (W main_arg5)
          ∗ pt c main_v0 (W main_v0) ∗ pt c main_v1 (W main_v1) ∗ pt c main_c (W main_c)
          ∗ pt c main_v2 (W main_v2) ∗ pt c main_v3 (W main_v3) ∗ pt c main_v4 (W main_v4)) := by
  unfold StableHlo.held
  rw [bigSep_eq_bigSepL_of_eq [Proc.devRef .tc main_arg0, Proc.devRef .tc main_arg1, Proc.devRef .tc main_arg2,
    Proc.devRef .tc main_arg3, Proc.devRef .tc main_arg4, Proc.devRef .tc main_arg5, Proc.devRef .tc main_v0,
    Proc.devRef .tc main_v1, Proc.devRef .tc main_c, Proc.devRef .tc main_v2, Proc.devRef .tc main_v3,
    Proc.devRef .tc main_v4] (by decide) (by decide)]
  rfl

/-! ## The windows' arrays, one by one -/

/-- The six windows' arrays at contents `Fa`: the two arrays read through two windows each are held half by each
    window; the mask words and the result are held whole. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg2) ↦{fullShare.left} Fa 0) ∗ (((c : Thread nD τ).loc main_arg1) ↦{fullShare.left} Fa 1)
          ∗ (((c : Thread nD τ).loc main_arg2) ↦{fullShare.right} Fa 2) ∗ (((c : Thread nD τ).loc main_arg1) ↦{fullShare.right} Fa 3)
          ∗ (((c : Thread nD τ).loc main_v0) ↦{fullShare} Fa 4) ∗ (((c : Thread nD τ).loc main_v1) ↦{fullShare} Fa 5)) := by
  unfold Dat.arrays
  rw [bigSep_W0, (arr_whole0 0).set_eq_univ, (arr_whole0 1).set_eq_univ, (arr_whole0 4).set_eq_univ, (arr_whole0 5).set_eq_univ]
  rfl

/-- An array at the region's entry, as the proof data names it, is the entry valuation's. -/
theorem arrAt_zero (c : Dev nD) (w : Fin cfg0.W) : (dats m 0 c).arrAt w 0 = V m c (Pipeline.arrRef spec0 w) := by
  rw [show (dats m 0 c).arrAt w 0 = (dats m 0 c).A w from rfl, A_eq]

/-- An input window's array is never written: at the region's exit it holds what it held at entry. -/
theorem arrAt_in0 (c : Dev nD) (n : ℕ) : (dats m 0 c).arrAt 0 n = V m c (Pipeline.arrRef spec0 0) := by
  rw [(dats m 0 c).arrAt_in 0 rfl n, A_eq]
theorem arrAt_in1 (c : Dev nD) (n : ℕ) : (dats m 0 c).arrAt 1 n = V m c (Pipeline.arrRef spec0 1) := by
  rw [(dats m 0 c).arrAt_in 1 rfl n, A_eq]
theorem arrAt_in2 (c : Dev nD) (n : ℕ) : (dats m 0 c).arrAt 2 n = V m c (Pipeline.arrRef spec0 2) := by
  rw [(dats m 0 c).arrAt_in 2 rfl n, A_eq]
theorem arrAt_in3 (c : Dev nD) (n : ℕ) : (dats m 0 c).arrAt 3 n = V m c (Pipeline.arrRef spec0 3) := by
  rw [(dats m 0 c).arrAt_in 3 rfl n, A_eq]
theorem arrAt_in4 (c : Dev nD) (n : ℕ) : (dats m 0 c).arrAt 4 n = V m c (Pipeline.arrRef spec0 4) := by
  rw [(dats m 0 c).arrAt_in 4 rfl n, A_eq]

/-! ## @main after the region -/

/-- Core `c`'s buffers when the region is left: the result's buffer at what the write-backs of all eight points
    leave, every other buffer as the region found it. -/
def Wv (c : Dev nD) : Valuation τ sig (Elt F) :=
  Function.update (StableHlo.after hostOps0 (V₀ m c)) (Proc.devRef .tc main_v1) ((dats m 0 c).arrAt 5 cfg0.N)

theorem Wv_v1 (c : Dev nD) : Wv m c (Proc.devRef .tc main_v1) = (dats m 0 c).arrAt 5 cfg0.N := Function.update_self ..
theorem Wv_ne (c : Dev nD) (b : Ref sig .tc) (h : b ≠ main_v1) : Wv m c (Proc.devRef .tc b) = V m c b :=
  Function.update_of_ne (StableHlo.devRef_ne_of_ne h) ..

/-- The composed value of the four operations after the region at the last of them, over the result's contents `z`:
    the result compared, word by word, against zero. -/
def tailVal (z : (⟨S8x4096, .i32⟩ : BufTy).Contents (Elt F)) : (⟨S8x4096, .i1⟩ : BufTy).Contents (Elt F) :=
  id (cmpi .ne z (broadcastInDim S8x4096 ![] bcast_S_S8x4096 (constantI S_ 32 0#32)))

/-- The operation before the region writes the widened mask only; -/
theorem not_written0 (b : Ref sig .tc) (hb : b ≠ main_v0) : ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

/-- the four after it write the constant, its broadcast, the comparison and its copy only. -/
theorem not_written1 (b : Ref sig .tc) (hb : b ≠ main_c ∧ b ≠ main_v2 ∧ b ≠ main_v3 ∧ b ≠ main_v4) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- An argument reaches the end as launched: no operation writes it, and the region writes its result only. -/
theorem final_arg (c : Dev nD) (b : Ref sig .tc)
    (hb : b ≠ main_v0 ∧ b ≠ main_v1 ∧ b ≠ main_c ∧ b ≠ main_v2 ∧ b ≠ main_v3 ∧ b ≠ main_v4) :
    StableHlo.after hostOps1 (Wv m c) (Proc.devRef .tc b) = m ((c : Thread nD τ).loc b) := by
  obtain ⟨h0, h1, h⟩ := hb
  rw [StableHlo.after_of_forall_not_mem (b := Proc.devRef .tc b) hostOps1 (Wv m c) (not_written1 b h), Wv_ne m c b h1]
  exact StableHlo.after_of_forall_not_mem (b := Proc.devRef .tc b) hostOps0 (V₀ m c) (not_written0 b h0)

/-- The last value is the tail's composed term at the result's final contents. -/
theorem final_v4 (c : Dev nD) :
    StableHlo.after hostOps1 (Wv m c) (Proc.devRef .tc main_v4) = tailVal ((dats m 0 c).arrAt 5 cfg0.N) := by
  unfold tailVal
  rw [← Wv_v1 m c]
  after_results

/-! ## The launch, by the library: @main as segments -/

/-- What rides beside the buffers through the host operations: the generator register at some state and the core's
    `owes`. -/
abbrev R (c : Dev nD) : sProp 𝕄 :=
  iprop((∃ r, prngReg c r) ∗ ∃ W, owes (c : Thread nD τ) (0 : CellTallies nD τ sig Unit) W)

/-- THE HOST SEGMENT BEFORE THE REGION: the mask widened to words, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- What bypasses the region: the unscoped buffers that are no window's array, as the region is entered. -/
abbrev Zc (c : Dev nD) : sProp 𝕄 :=
  iprop(pt c main_arg0 (V m c main_arg0) ∗ pt c main_arg3 (V m c main_arg3) ∗ pt c main_arg4 (V m c main_arg4)
    ∗ pt c main_arg5 (V m c main_arg5) ∗ pt c main_c (V m c main_c) ∗ pt c main_v2 (V m c main_v2)
    ∗ pt c main_v3 (V m c main_v3) ∗ pt c main_v4 (V m c main_v4))

set_option backward.isDefEq.respectTransparency.types false in
/-- THE REGION.  Entered from what `seg0` left: each of the two arrays read through two windows is split in halves,
    one per window; the mask words and the result go to their windows whole; the generator register enters the
    invariant; the eight other buffers bypass.  Left with the halves rejoined, the result at its final contents. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (Wv m c) ∗ R c)
  X c := iprop(∃ r, prngReg c r)
  Y c := iprop(∃ r, prngReg c r)
  Z c := Zc m c
  hentry c := by
    rw [held_ucRefs, arrays_chain]
    simp only [arrAt_zero]
    iintro ⟨⟨⟨H0, H1, H2, H3, H4, H5, Hv0, Hv1, Hc, Hv2, Hv3, Hv4⟩, Hg, HO⟩, -, -⟩
    ihave H1 := (pointsTo_share (PosShare.mem_left_op_right fullShare)).1 $$ H1
    icases H1 with ⟨H1l, H1r⟩
    ihave H2 := (pointsTo_share (PosShare.mem_left_op_right fullShare)).1 $$ H2
    icases H2 with ⟨H2l, H2r⟩
    imodintro
    isplitl [H1l H1r H2l H2r Hv0 Hv1]
    · isplitl [H2l]; · iexact H2l
      isplitl [H1l]; · iexact H1l
      isplitl [H2r]; · iexact H2r
      isplitl [H1r]; · iexact H1r
      isplitl [Hv0]; · iexact Hv0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    isplitl [H0]; · iexact H0
    isplitl [H3]; · iexact H3
    isplitl [H4]; · iexact H4
    isplitl [H5]; · iexact H5
    isplitl [Hc]; · iexact Hc
    isplitl [Hv2]; · iexact Hv2
    isplitl [Hv3]; · iexact Hv3
    iexact Hv4
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = Pipeline.ΦA spec0 c from rfl]; unfold Pipeline.ΦA
    iintro ⟨Hr, Hg⟩
    isplitl [Hg]; · iexact Hg
    isplitr; · iempintro
    iexact Hr
  hexit c := by
    rw [held_ucRefs, arrays_chain]
    simp only [arrAt_in0, arrAt_in1, arrAt_in2, arrAt_in3, arrAt_in4]
    rw [Wv_v1, Wv_ne m c main_arg0 (by decide), Wv_ne m c main_arg1 (by decide), Wv_ne m c main_arg2 (by decide),
      Wv_ne m c main_arg3 (by decide), Wv_ne m c main_arg4 (by decide), Wv_ne m c main_arg5 (by decide),
      Wv_ne m c main_v0 (by decide), Wv_ne m c main_c (by decide), Wv_ne m c main_v2 (by decide),
      Wv_ne m c main_v3 (by decide), Wv_ne m c main_v4 (by decide)]
    iintro ⟨⟨H2l, H1l, H2r, H1r, Hv0, Hv1⟩, HO, Hg, ⟨H0, H3, H4, H5, Hc, Hv2, Hv3, Hv4⟩⟩
    ihave H2 := (pointsTo_share (PosShare.mem_left_op_right fullShare)).2 $$ [H2l H2r]
    · isplitl [H2l] <;> iassumption
    ihave H1 := (pointsTo_share (PosShare.mem_left_op_right fullShare)).2 $$ [H1l H1r]
    · isplitl [H1l] <;> iassumption
    imodintro
    isplitr [Hg HO]
    · isplitl [H0]; · iexact H0
      isplitl [H1]; · iexact H1
      isplitl [H2]; · iexact H2
      isplitl [H3]; · iexact H3
      isplitl [H4]; · iexact H4
      isplitl [H5]; · iexact H5
      isplitl [Hv0]; · iexact Hv0
      isplitl [Hv1]; · iexact Hv1
      isplitl [Hc]; · iexact Hc
      isplitl [Hv2]; · iexact Hv2
      isplitl [Hv3]; · iexact Hv3
      iexact Hv4
    · isplitl [Hg]; · iexact Hg
      unfold Pipeline.Dat.owesAt Pipeline.owesWithin
      icases HO with ⟨%W, -, HO⟩; iexists W; iexact HO

/-- THE HOST SEGMENT AFTER THE REGION: the zero constant, its broadcast, the result compared against it, the
    comparison copied; over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (Wv m) R

/-- @main as the list of the three. -/
abbrev segs : List (Pipeline.Seg (pcfgs (F := F)) adm (dats m) () defs₀ 𝒱₀ L lv) :=
  [.host (seg0 m), .region (reg0 m), .host (seg1 m)]

/-- The last thread state: every unscoped buffer as the four operations after the region leave it, the generator
    register at some state. -/
abbrev Tₙ (c : Dev nD) : sProp 𝕄 :=
  iprop(StableHlo.held (c : Thread nD τ) (Pipeline.ucRefs τ sig) (StableHlo.after hostOps1 (Wv m c)) ∗ ∃ r, prngReg c r)

set_option backward.isDefEq.respectTransparency.types false in
/-- At the compiled mesh, for any float values, from any memory with zero counters: every weakly fair execution of
    @main on the TensorCores terminates, and every final state has the six arguments as launched and the last value
    at the comparison of the region's result — as the write-backs of all eight points leave it — against zero. -/
theorem run_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = tailVal ((dats m 0 c).arrAt 5 cfg0.N)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      refine (show (ownU _ : sProp 𝕄) ⊢ BI.own (EP (initOf (Pipeline.cells (Pipeline.pin (pcfgs (F := F)) adm) cellOf_inj)
        (Pipeline.launchToks (Pipeline.pin (pcfgs (F := F)) adm) cellOf_inj))) from .rfl).trans ?_
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := by
      refine ⟨fun _ => .rfl, fun _ => .rfl, fun _ => .rfl, fun c => ?_⟩
      show iprop(StableHlo.held (c : Thread nD τ) (Pipeline.ucRefs τ sig) (StableHlo.after hostOps1 (Wv m c)) ∗ R c)
        ⊢ iprop(Tₙ m c ∗ ∃ W, owes (c : Thread nD τ) (0 : CellTallies nD τ sig Unit) W)
      iintro ⟨Hh, Hg, HO⟩
      isplitr [HO]
      · isplitl [Hh] <;> iassumption
      · iexact HO)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hg, -⟩, -⟩
      imodintro
      isplitl [Hh]; · iexact Hh
      isplitl [Hg]; · iexists _; iexact Hg
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_v4) = tailVal ((dats m 0 c).arrAt 5 cfg0.N))
    (hfin := fun c s' => by
      dsimp only [Tₙ]
      rw [held_ucRefs, final_arg m c main_arg0 (by decide), final_arg m c main_arg1 (by decide), final_arg m c main_arg2 (by decide),
        final_arg m c main_arg3 (by decide), final_arg m c main_arg4 (by decide), final_arg m c main_arg5 (by decide), final_v4]
      iintro ⟨⟨⟨H0, H1, H2, H3, H4, H5, -, -, -, -, -, Hv4⟩, -⟩, HSI⟩
      icombine HSI H0 gives %h0
      icombine HSI H1 gives %h1
      icombine HSI H2 gives %h2
      icombine HSI H3 gives %h3
      icombine HSI H4 gives %h4
      icombine HSI H5 gives %h5
      icombine HSI Hv4 gives %hv4
      imodintro
      isplitr
      · ipureintro
        exact ⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ hv4⟩
      iexact HSI)
    (hQ := fun _ h => h)

/-- info: 'Cert.Kernel.Hand.run_main' depends on axioms: [propext, Classical.choice, Quot.sound] -/
#guard_msgs in #print axioms run_main

end Cert.Kernel.Hand

end
-- ==== Proof.Spec.lean ====
/-
  The specification both programs meet, stated with no program in sight.

  Eight batches of 4096 planar points `(x, y)`.  Point `k` is NEAR point `q` when the squared distance
  `(x_q - x_k)² + (y_q - y_k)²`, formed on the extended reals in exactly that order of operations, is at most the
  radius squared (the single-precision pattern `0x3C23D70A`).  A point is KEPT when its mask bit is set and it has
  more than eight near points (itself included).  The count is written here the way the accumulating side forms it —
  sixteen tiles of 256 candidates, each tile's near bits read as the reals 0 and 1 and summed — and compared against the
  real 8 (pattern `0x41000000`).
-/
import Idealize.ShloMosaic.PureOps.Ideal
import Idealize.ShloMosaic.Lib.ValueIdx

noncomputable section

open scoped BigOperators

namespace Cert.Spec

open Idealize.ShloMosaic Idealize.ShloMosaic.ValueIdx

/-- A batch of 4096 values per row, eight rows. -/
abbrev Pts : Shape := ⟨2, ![8, 4096]⟩

/-- The radius squared, as both programs spell it. -/
def r2 : EReal := Ideal.ofBits .f32 0x3C23D70A#32

/-- The count's threshold, the real 8. -/
def eight : EReal := Ideal.ofBits .f32 0x41000000#32

/-- Squared planar distance between points `q` and `k` of batch `b`: `dx·dx + dy·dy`. -/
def dist2 (x y : Pts.Idx → EReal) (b : Fin 8) (q k : Fin 4096) : EReal :=
  (x (ix2 b q) - x (ix2 b k)) * (x (ix2 b q) - x (ix2 b k))
    + (y (ix2 b q) - y (ix2 b k)) * (y (ix2 b q) - y (ix2 b k))

/-- The near bit: is point `k` within the radius of point `q`? -/
def near (x y : Pts.Idx → EReal) (b : Fin 8) (q k : Fin 4096) : BitVec 1 :=
  Ideal.cmp .ole (dist2 x y b q k) r2

/-- Candidate `l` of tile `j` (tiles of 256 along the row; the remainder keeps the index in range for every `j`). -/
def cand (j : ℕ) (l : Fin 256) : Fin 4096 := ⟨(j * 256 + l.val) % 4096, Nat.mod_lt _ (by decide)⟩

/-- One near bit as a real number, 0 or 1: the bit widened to a word and read as a signed integer. -/
def bitReal (w : BitVec 1) : EReal := (((w.setWidth 32).toInt : ℝ) : EReal)

/-- Tile `j`'s share of the count of point `q`. -/
def tile (x y : Pts.Idx → EReal) (b : Fin 8) (q : Fin 4096) (j : ℕ) : EReal :=
  ∑ l : Fin 256, bitReal (near x y b q (cand j l))

/-- The number of points near `q`, tile after tile. -/
def count (x y : Pts.Idx → EReal) (b : Fin 8) (q : Fin 4096) : EReal :=
  ∑ j ∈ Finset.range 16, tile x y b q j

/-- The kept mask: the mask bit, and more than eight near points. -/
def keep (x y : Pts.Idx → EReal) (vm : Pts.Idx → BitVec 1) : Pts.Idx → BitVec 1 :=
  fun i => vm i &&& Ideal.cmp .ogt (count x y (i 0) (i 1)) eight

end Cert.Spec

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Payload.lean ====
/-
  The body's three stored values read at one entry, on the extended reals.

  * the zero fill is 0 at every entry;
  * one trip adds to the running total at `(b, r)` the tile's near-count: the sum over the tile's 256 candidates of
    the near bit of query `(b, r)` against candidate `(b, l)`, each bit read as the real 0 or 1 — the query and the
    candidate coordinates reach the 8 × 512 × 256 comparison through unit axes and broadcasts that change no entry;
  * the output word at `(b, r)` is the one-bit "mask word nonzero and total above eight", widened.
-/
import proofs.«133740_j27238682591584_2_alg».proof.Proof.Gen.KernelIdeal.Skeleton
import proofs.«133740_j27238682591584_2_alg».proof.Proof.Spec
import proofs.«133740_j27238682591584_2_alg».proof.Proof.LibGroupedLanes
import proofs.«133740_j27238682591584_2_alg».proof.Proof.LibLayout
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The near bit of a query value pair against a candidate value pair: the specification's, over loose coordinates. -/
def nearAt (xq yq xk yk : EReal) : BitVec 1 :=
  Ideal.cmp .ole ((xq - xk) * (xq - xk) + (yq - yk) * (yq - yk)) Cert.Spec.r2

/-- The zero fill: every entry is the real 0. -/
theorem pay1_apply (b : Fin 8) (r : Fin 512) : k0_pay1 (F := Ideal) (ix2 b r) = 0 := by
  unfold k0_pay1
  rw [shapeCast_self]
  exact Ideal.ofBits_zero_f32

/-- The compared quantity at `(b, r, l)`: the query's and the candidate's coordinates, unchanged by the unit axes and
    the broadcasts. -/
theorem spreadQ (v : Vec Ideal S8x512 .f32) (b : Fin 8) (r : Fin 512) (l : Fin 256) :
    broadcastTo S8x512x256 (shapeCast S8x512x1 v shapeCasts_S8x512_S8x512x1) broadcasts_S8x512x1_S8x512x256 (ix3 b r l)
      = v (ix2 b r) := by
  refine (Cert.Lib.GroupedLanes.spread_apply _ _ b r l).trans ?_
  exact Cert.Lib.GroupedLanes.keep_apply v _ b r 0

theorem spreadK (v : Vec Ideal S8x256 .f32) (b : Fin 8) (r : Fin 512) (l : Fin 256) :
    broadcastTo S8x512x256 (shapeCast S8x1x256 v shapeCasts_S8x256_S8x1x256) broadcasts_S8x1x256_S8x512x256 (ix3 b r l)
      = v (ix2 b l) :=
  Cert.LibLayout.keep_apply v _ _ b r l

/-- One trip: the running total at `(b, r)` grows by the tile's near-count. -/
theorem pay2_apply (v4 v5 : Vec Ideal S8x512 .f32) (v21 v23 : Vec Ideal S8x256 .f32) (v41 : Vec Ideal S8x512 .f32)
    (b : Fin 8) (r : Fin 512) :
    k0_pay2 (F := Ideal) v4 v5 v21 v23 v41 (ix2 b r)
      = v41 (ix2 b r) + ∑ l : Fin 256, Cert.Spec.bitReal (nearAt (v4 (ix2 b r)) (v5 (ix2 b r)) (v21 (ix2 b l)) (v23 (ix2 b l))) := by
  unfold k0_pay2
  rw [shapeCast_self]
  refine (addf_apply _ _ _).trans ?_
  refine congrArg (v41 (ix2 b r) + ·) ?_
  refine (Cert.Lib.GroupedLanes.lanesum_apply _ _ _ _ b r).trans ?_
  refine Finset.sum_congr rfl fun l _ => ?_
  rw [sitofp_apply, extui_apply, cmpf_apply, addf_apply, mulf_apply, mulf_apply, subf_apply, subf_apply,
    spreadQ, spreadQ, spreadK, spreadK, broadcast_apply]
  rfl

/-- The output word at `(b, r)`: mask word nonzero, and total above eight. -/
theorem pay3_apply (v7 : Vec Ideal S8x512 .f32) (v10 : Vec Ideal S8x512 .i32) (b : Fin 8) (r : Fin 512) :
    k0_pay3 (F := Ideal) v7 v10 (ix2 b r)
      = (IntOp.andi (IntOp.cmpi .ne (v10 (ix2 b r)) 0#32) (Ideal.cmp .ogt (v7 (ix2 b r)) Cert.Spec.eight)).setWidth 32 := by
  unfold k0_pay3
  rfl

end Cert.KernelIdeal.Payload

end
-- ==== Proof.Accum.lean ====
/-
  The running total across the sixteen trips, and the output block at one entry.

  Before trip `k` the scratch row block holds, at `(b, r)`, the near-counts of tiles `0 … k-1` added to what it held
  when the loop was entered; the loop is entered right after the zero fill, so after the last trip it holds the whole
  count.  The output word at `(b, r)` is then "mask word nonzero and count above eight".
-/
import proofs.«133740_j27238682591584_2_alg».proof.Proof.Body
import proofs.«133740_j27238682591584_2_alg».proof.Proof.Payload
import Idealize.ShloMosaic.Lib.WholeRead
import Idealize.ShloMosaic.Lib.Writes
import Idealize.ShloMosaic.Lib.Pipeline.FrameBody

set_option maxRecDepth 16384

noncomputable section

open scoped BigOperators

namespace Cert.KernelIdeal.Accum

open Cert.KernelIdeal Cert.KernelIdeal.Gen Cert.KernelIdeal.Payload
open Idealize.ShloMosaic Idealize.ShloMosaic.TcCoe Idealize.ShloMosaic.ValueIdx
open Idealize.SL Idealize.SL.Sem

/-- The whole 8 × 512 block as a rectangle: what every store and load of the scratch, the query blocks, the mask and the
    output goes through. -/
abbrev whole7 : Rect S8x512 := Rect.unit (s := S8x512) ![0, 0] S8x512.size inb_S8x512_S8x512_0_0

/-- An index of the whole block is its own position in the rectangle. -/
theorem whole7_emb (y : S8x512.Idx) : whole7.emb y = y := by
  funext a; apply Fin.ext
  rw [Rect.emb_apply]
  match a with
  | ⟨0, _⟩ => show 0 + 1 * (y 0).val = (y 0).val; omega
  | ⟨1, _⟩ => show 0 + 1 * (y 1).val = (y 1).val; omega

variable (𝒱 : Variants) (c : Dev nD) (bd : Option 𝒱.V) (i : grid0.Coords)
  (arg1 : Memref sig .tc .vmem S8x512 .f32) (harg1 : arg1.IsWhole) (arg2 : Memref sig .tc .vmem S8x512 .f32) (harg2 : arg2.IsWhole)
  (arg3 : Memref sig .tc .vmem S8x4096 .f32) (harg3 : arg3.IsWhole) (arg4 : Memref sig .tc .vmem S8x4096 .f32) (harg4 : arg4.IsWhole)
  (arg5 : Memref sig .tc .vmem S8x512 .i32) (harg5 : arg5.IsWhole) (arg6 : Memref sig .tc .vmem S8x512 .i32) (harg6 : arg6.IsWhole)
  (arg7 : Memref sig .tc .vmem S8x512 .f32) (harg7 : arg7.IsWhole)
  (v4 v5 : Vec Ideal S8x512 .f32) (x3 x4 : Vec Ideal S8x4096 .f32) (G7 : BufTy.Contents (Elt Ideal) arg7.view.ty)

/-- The running total before trip `k`: the scratch read whole after the trips before `k`. -/
def tot (k : ℕ) : Vec Ideal S8x512 .f32 :=
  View.readAt (Elt Ideal) arg7.view whole7.toLoadRect
    (arg7.view.writes (Elt Ideal) G7
      (pb_k0_t1 (F := Ideal) 𝒱 c bd i arg1 harg1 arg2 harg2 arg3 harg3 arg4 harg4 arg5 harg5 arg6 harg6 arg7 harg7 v4 v5
        (harg3.unread x3) (harg4.unread x4) G7 k))

/-- Tile `k`'s candidates, loaded from the whole-array block: entry `(b, l)` is the array's entry `(b, 256 k + l)`. -/
theorem tile_apply (harg : arg3.IsWhole) (x : Vec Ideal S8x4096 .f32) (k : Fin k0_t1_loop.trips) (b : Fin 8) (l : Fin 256) :
    View.readAt (Elt Ideal) arg3.view (Rect.unit (s := S8x4096) (k0_off1 k) S8x256.size (k0_off1_inb k)).toLoadRect (harg.unread x) (ix2 b l)
      = x (ix2 b (Cert.Spec.cand k.val l)) := by
  rw [harg.readAt_unread]
  refine congrArg x ?_
  have hk : k.val < 16 := Nat.lt_of_lt_of_le k.isLt k0_t1_abs.2.1
  funext a; apply Fin.ext
  match a with
  | ⟨0, _⟩ =>
    show (k0_off1 k) 0 + 1 * b.val = b.val
    rw [k0_off1_eq]; show 0 + 1 * b.val = b.val; omega
  | ⟨1, _⟩ =>
    show (k0_off1 k) 1 + 1 * l.val = (k.val * 256 + l.val) % 4096
    rw [k0_off1_eq]; show 256 * k.val + 1 * l.val = (k.val * 256 + l.val) % 4096
    have := l.isLt; omega

/-- One trip: the running total after trip `k` is the trip's stored value over the total before it. -/
theorem tot_succ (k : Fin k0_t1_loop.trips) :
    tot 𝒱 c bd i arg1 harg1 arg2 harg2 arg3 harg3 arg4 harg4 arg5 harg5 arg6 harg6 arg7 harg7 v4 v5 x3 x4 G7 (k.val + 1)
      = k0_pay2 (F := Ideal) v4 v5
          (View.readAt (Elt Ideal) arg3.view (Rect.unit (s := S8x4096) (k0_off1 k) S8x256.size (k0_off1_inb k)).toLoadRect (harg3.unread x3))
          (View.readAt (Elt Ideal) arg4.view (Rect.unit (s := S8x4096) (k0_off1 k) S8x256.size (k0_off1_inb k)).toLoadRect (harg4.unread x4))
          (tot 𝒱 c bd i arg1 harg1 arg2 harg2 arg3 harg3 arg4 harg4 arg5 harg5 arg6 harg6 arg7 harg7 v4 v5 x3 x4 G7 k.val) := by
  unfold tot
  rw [pb_k0_t1_succ, View.writes_append]
  unfold tripL_k0_t1 trip_k0_t1
  dsimp only
  funext j
  rw [View.readAt_apply]
  exact View.read_writes_cons_emb _ _ _ _ _ j

/-- The running total's entry `(b, r)` before trip `k`: what the loop found there plus the near-counts of the tiles
    before `k`. -/
theorem tot_apply (b : Fin 8) (r : Fin 512) : ∀ k : ℕ, k ≤ k0_t1_loop.trips →
    tot 𝒱 c bd i arg1 harg1 arg2 harg2 arg3 harg3 arg4 harg4 arg5 harg5 arg6 harg6 arg7 harg7 v4 v5 x3 x4 G7 k (ix2 b r)
      = tot 𝒱 c bd i arg1 harg1 arg2 harg2 arg3 harg3 arg4 harg4 arg5 harg5 arg6 harg6 arg7 harg7 v4 v5 x3 x4 G7 0 (ix2 b r)
        + ∑ j ∈ Finset.range k, ∑ l : Fin 256,
            Cert.Spec.bitReal (nearAt (v4 (ix2 b r)) (v5 (ix2 b r)) (x3 (ix2 b (Cert.Spec.cand j l))) (x4 (ix2 b (Cert.Spec.cand j l))))
  | 0, _ => by rw [Finset.range_zero, Finset.sum_empty, add_zero]
  | k + 1, hk => by
    have ih := tot_apply b r k (Nat.le_of_succ_le hk)
    have hs := tot_succ 𝒱 c bd i arg1 harg1 arg2 harg2 arg3 harg3 arg4 harg4 arg5 harg5 arg6 harg6 arg7 harg7 v4 v5 x3 x4 G7 ⟨k, hk⟩
    rw [show (k + 1) = (⟨k, hk⟩ : Fin k0_t1_loop.trips).val + 1 from rfl, hs, pay2_apply, ih, Finset.sum_range_succ, add_assoc]
    refine congrArg _ (congrArg _ (Finset.sum_congr rfl fun l _ => ?_))
    rw [tile_apply arg3 harg3 x3 ⟨k, hk⟩ b l, tile_apply arg4 harg4 x4 ⟨k, hk⟩ b l]

/-- Sixteen trips. -/
theorem trips_eq : k0_t1_loop.trips = 16 := by decide +kernel

/-- A whole-block load of a buffer held at contents `x` reads `x`. -/
theorem wholeLoad_apply {e : EltTy} (M : Memref sig .tc .vmem S8x512 e) (hM : M.IsWhole) (x : S8x512.Idx → Elt Ideal e) (y : S8x512.Idx) :
    View.readAt (Elt Ideal) M.view whole7.toLoadRect (hM.unread x) y = x y := by
  rw [hM.readAt_unread]
  exact congrArg x (whole7_emb y)

variable (x1 x2 : Vec Ideal S8x512 .f32) (x5 : Vec Ideal S8x512 .i32)

/-- After the loop the scratch holds, at `(b, r)`, the count of the candidates near query `(b, r)`: sixteen tiles'
    near-counts over the zero fill. -/
theorem v7_apply (b : Fin 8) (r : Fin 512) :
    Body.kernelRun.sl.v7 (F := Ideal) c i arg1 harg1 arg2 harg2 arg3 harg3 arg4 harg4 arg5 harg5 arg6 harg6 arg7 harg7 x1 x2 x3 x4 (ix2 b r)
      = ∑ j ∈ Finset.range 16, ∑ l : Fin 256,
          Cert.Spec.bitReal (nearAt (x1 (ix2 b r)) (x2 (ix2 b r)) (x3 (ix2 b (Cert.Spec.cand j l))) (x4 (ix2 b (Cert.Spec.cand j l)))) := by
  unfold Body.kernelRun.sl.v7
  rw [View.writes_append]
  refine (tot_apply Variants.none c none i arg1 harg1 arg2 harg2 arg3 harg3 arg4 harg4 arg5 harg5 arg6 harg6 arg7 harg7 _ _ x3 x4 _ b r
    k0_t1_loop.trips le_rfl).trans ?_
  rw [trips_eq, wholeLoad_apply, wholeLoad_apply]
  have h0 : tot Variants.none c none i arg1 harg1 arg2 harg2 arg3 harg3 arg4 harg4 arg5 harg5 arg6 harg6 arg7 harg7
      (View.readAt (Elt Ideal) arg1.view whole7.toLoadRect (harg1.unread x1)) (View.readAt (Elt Ideal) arg2.view whole7.toLoadRect (harg2.unread x2))
      x3 x4 (arg7.view.writes (Elt Ideal) arg7.view.junk Body.kernelRun.sl.H7_1) 0 = k0_pay1 (F := Ideal) := by
    unfold tot
    rw [show pb_k0_t1 (F := Ideal) Variants.none c none i arg1 harg1 arg2 harg2 arg3 harg3 arg4 harg4 arg5 harg5 arg6 harg6 arg7 harg7
        (View.readAt (Elt Ideal) arg1.view whole7.toLoadRect (harg1.unread x1)) (View.readAt (Elt Ideal) arg2.view whole7.toLoadRect (harg2.unread x2))
        (harg3.unread x3) (harg4.unread x4) (arg7.view.writes (Elt Ideal) arg7.view.junk Body.kernelRun.sl.H7_1) 0 = [] from rfl,
      View.writes_nil]
    unfold Body.kernelRun.sl.H7_1
    funext j
    rw [View.readAt_apply]
    exact View.read_writes_cons_emb _ _ _ _ _ j
  rw [h0, pay1_apply, zero_add]

/-- What the body's stores leave in the output block, at `(b, r)`: the one-bit "mask word nonzero, and more than eight
    candidates near query `(b, r)`", widened to a word. -/
theorem pieces_apply (b : Fin 8) (r : Fin 512) :
    View.canon (Body.kernelRun (F := Ideal) c i arg1 harg1 arg2 harg2 arg3 harg3 arg4 harg4 arg5 harg5 arg6 harg6 arg7 harg7 x1 x2 x3 x4 x5).1 (ix2 b r)
      = (IntOp.andi (IntOp.cmpi .ne (x5 (ix2 b r)) 0#32)
          (Ideal.cmp .ogt
            (∑ j ∈ Finset.range 16, ∑ l : Fin 256,
              Cert.Spec.bitReal (nearAt (x1 (ix2 b r)) (x2 (ix2 b r)) (x3 (ix2 b (Cert.Spec.cand j l))) (x4 (ix2 b (Cert.Spec.cand j l)))))
            Cert.Spec.eight)).setWidth 32 := by
  unfold Body.kernelRun
  dsimp only
  refine (congrArg _ (whole7_emb (ix2 b r)).symm).trans ?_
  refine (View.canon_cons_emb whole7 _ [] (ix2 b r)).trans ?_
  rw [pay3_apply, v7_apply, wholeLoad_apply]

end Cert.KernelIdeal.Accum

end
-- ==== Proof.OutBlock.lean ====
/-
  The output block at one entry, at a grid point.

  What the body leaves at `(b, r)` of the point's output block: the mask word there is nonzero, and more than eight of
  the 4096 candidates of batch `b` — visited as sixteen tiles of 256 — are near the point's query `r`; one bit, widened.
-/
import proofs.«133740_j27238682591584_2_alg».proof.Proof.Data
import proofs.«133740_j27238682591584_2_alg».proof.Proof.Accum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

theorem outBlk_apply (m : (ℓ : Loc nD τ sig) → Buf (Elt Ideal) ℓ) (c : Dev nD) (t : Fin cfg0.N) (b : Fin 8) (r : Fin 512) :
    outBlk (F := Ideal) m c t (ix2 b r)
      = (IntOp.andi (IntOp.cmpi .ne ((iblk m c 4 t : Vec Ideal S8x512 .i32) (ix2 b r)) 0#32)
          (Ideal.cmp .ogt
            (∑ j ∈ Finset.range 16, ∑ l : Fin 256, Cert.Spec.bitReal (Cert.KernelIdeal.Payload.nearAt
                ((iblk m c 0 t : Vec Ideal S8x512 .f32) (ix2 b r)) ((iblk m c 1 t : Vec Ideal S8x512 .f32) (ix2 b r))
                ((iblk m c 2 t : Vec Ideal S8x4096 .f32) (ix2 b (Cert.Spec.cand j l))) ((iblk m c 3 t : Vec Ideal S8x4096 .f32) (ix2 b (Cert.Spec.cand j l)))))
            Cert.Spec.eight)).setWidth 32 := by
  unfold outBlk outPieces
  exact Cert.KernelIdeal.Accum.pieces_apply (c := c) (i := grid0.coords t) (arg1 := ms0 t) (harg1 := hs0 t) (arg2 := ms1 t) (harg2 := hs1 t)
    (arg3 := ms2 t) (harg3 := hs2 t) (arg4 := ms3 t) (harg4 := hs3 t) (arg5 := ms4 t) (harg5 := hs4 t) (arg6 := ms5 t) (harg6 := hs5 t)
    (arg7 := scM) (harg7 := Memref.isWhole_whole _) (x1 := iblk m c 0 t) (x2 := iblk m c 1 t) (x3 := iblk m c 2 t) (x4 := iblk m c 3 t)
    (x5 := iblk m c 4 t) b r

end Cert.KernelIdeal.Hand

end
-- ==== Proof.Final.lean ====
/-
  From the output blocks to the whole array, and through the comparison that follows the region.

  The region is entered with the two coordinate arrays as launched and the mask widened to words.  At grid point `t`
  the query windows and the mask window hold columns `512 t … 512 t + 511` of their arrays, the two candidate windows
  hold the whole coordinate arrays, and the body leaves in the output block, at entry `(b, r)`, the word "mask word
  nonzero and more than eight near candidates" of the query in column `512 t + r`.  Read through the blocks, that is the
  kept word of point `(b, 512 t + r)`: the mask bit of the point, and its tiled near-count above eight, widened to 32
  bits.  Every point writes its block back and column `q` lies in the block of point `q / 512`, so the blocks cover the
  array and it ends holding the kept words.  The comparison after the region tests each word against zero, and a
  widened bit is nonzero exactly when the bit is set: the result is the specification's kept mask.
-/
import proofs.«133740_j27238682591584_2_alg».proof.Proof.Data
import proofs.«133740_j27238682591584_2_alg».proof.Proof.Payload
import proofs.«133740_j27238682591584_2_alg».proof.Proof.Spec
import proofs.«133740_j27238682591584_2_alg».proof.Proof.OutBlock
import Idealize.ShloMosaic.Lib.Pipeline.Value
import Idealize.ShloMosaic.Lib.ValueIdx
import Idealize.ShloMosaic.Lib.Tactic

set_option maxRecDepth 16384

noncomputable section

open scoped BigOperators

namespace Cert.KernelIdeal.Final

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The arrays at region entry, and the windows' blocks read off them -/

section AnyInstance

variable {F : FTy → Type} [FloatOps F]
variable (m : (ℓ : Loc nD τ sig) → Buf (Elt F) ℓ)

/-- The one host operation before the region writes the widened mask only. -/
theorem not_written (b : Ref sig .tc) (hb : b ≠ main_v0) :
    ∀ op ∈ (hostOps0 (F := F)), Proc.devRef .tc b ∉ op.writes := by
  intro op hop
  simp only [List.mem_cons, List.mem_nil_iff, or_false] at hop
  rcases hop with rfl
  simp only [StableHlo.unary_writes, Finset.mem_singleton]
  exact StableHlo.devRef_ne_of_ne hb

/-- The first coordinates reach the region as launched, -/
theorem V_x (c : Dev nD) : V m c main_arg2 = m ((c : Thread nD τ).loc main_arg2) :=
  StableHlo.after_of_forall_not_mem (b := Proc.devRef .tc main_arg2) hostOps0 (V₀ m c) (not_written main_arg2 (by decide))

/-- the second coordinates too, -/
theorem V_y (c : Dev nD) : V m c main_arg1 = m ((c : Thread nD τ).loc main_arg1) :=
  StableHlo.after_of_forall_not_mem (b := Proc.devRef .tc main_arg1) hostOps0 (V₀ m c) (not_written main_arg1 (by decide))

/-- and the mask words are the mask bits widened. -/
theorem V_words (c : Dev nD) :
    (V m c main_v0 : S8x4096.Idx → BitVec 32)
      = extui 32 (m ((c : Thread nD τ).loc main_arg4) : S8x4096.Idx → BitVec 1) natLt_1_32 := by
  dsimp only [V, hostOps0]
  after_results

/-- The windows' block indices at point `t`: the query and mask windows and the output window sit at column block
    `t` of row block 0; the two candidate windows at block (0, 0), the whole array. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- The grid has eight points. -/
theorem t_lt (t : Fin cfg0.N) : t.val < 8 := lt_of_lt_of_eq t.isLt N_0

/-- Column `r` of point `t`'s block of 512 columns. -/
def col (t : Fin cfg0.N) (r : Fin 512) : Fin 4096 := ⟨512 * t.val + r.val, by have := t_lt t; omega⟩

/-- The query window of the first coordinates at `(b, r)` is the array at `(b, 512 t + r)`; -/
theorem xq_apply (c : Dev nD) (t : Fin cfg0.N) (b : Fin 8) (r : Fin 512) :
    (iblk m c 0 t : Vec F S8x512 .f32) (ix2 b r)
      = (m ((c : Thread nD τ).loc main_arg2) : S8x4096.Idx → Elt F .f32) (ix2 b (col t r)) := by
  unfold iblk
  rw [View.read_apply]
  show V m c main_arg2 _ = _
  rw [V_x]
  congr 1
  funext a
  apply Fin.ext
  obtain ⟨⟨e0, e1⟩, -⟩ := idx_facts t
  match a with
  | ⟨0, _⟩ => show win0_0.index t (0 : Fin 2) * 8 + 1 * b.val = b.val; rw [e0]; omega
  | ⟨1, _⟩ => show win0_0.index t (1 : Fin 2) * 512 + 1 * r.val = 512 * t.val + r.val; rw [e1]; omega

/-- likewise the query window of the second coordinates. -/
theorem yq_apply (c : Dev nD) (t : Fin cfg0.N) (b : Fin 8) (r : Fin 512) :
    (iblk m c 1 t : Vec F S8x512 .f32) (ix2 b r)
      = (m ((c : Thread nD τ).loc main_arg1) : S8x4096.Idx → Elt F .f32) (ix2 b (col t r)) := by
  unfold iblk
  rw [View.read_apply]
  show V m c main_arg1 _ = _
  rw [V_y]
  congr 1
  funext a
  apply Fin.ext
  obtain ⟨-, ⟨e0, e1⟩, -⟩ := idx_facts t
  match a with
  | ⟨0, _⟩ => show win0_1.index t (0 : Fin 2) * 8 + 1 * b.val = b.val; rw [e0]; omega
  | ⟨1, _⟩ => show win0_1.index t (1 : Fin 2) * 512 + 1 * r.val = 512 * t.val + r.val; rw [e1]; omega

/-- The candidate window of the first coordinates is the whole array, entry by entry; -/
theorem xk_apply (c : Dev nD) (t : Fin cfg0.N) (b : Fin 8) (k : Fin 4096) :
    (iblk m c 2 t : Vec F S8x4096 .f32) (ix2 b k)
      = (m ((c : Thread nD τ).loc main_arg2) : S8x4096.Idx → Elt F .f32) (ix2 b k) := by
  unfold iblk
  rw [View.read_apply]
  show V m c main_arg2 _ = _
  rw [V_x]
  congr 1
  funext a
  apply Fin.ext
  obtain ⟨-, -, ⟨e0, e1⟩, -⟩ := idx_facts t
  match a with
  | ⟨0, _⟩ => show win0_2.index t (0 : Fin 2) * 8 + 1 * b.val = b.val; rw [e0]; omega
  | ⟨1, _⟩ => show win0_2.index t (1 : Fin 2) * 4096 + 1 * k.val = k.val; rw [e1]; omega

/-- likewise the candidate window of the second coordinates. -/
theorem yk_apply (c : Dev nD) (t : Fin cfg0.N) (b : Fin 8) (k : Fin 4096) :
    (iblk m c 3 t : Vec F S8x4096 .f32) (ix2 b k)
      = (m ((c : Thread nD τ).loc main_arg1) : S8x4096.Idx → Elt F .f32) (ix2 b k) := by
  unfold iblk
  rw [View.read_apply]
  show V m c main_arg1 _ = _
  rw [V_y]
  congr 1
  funext a
  apply Fin.ext
  obtain ⟨-, -, -, ⟨e0, e1⟩, -⟩ := idx_facts t
  match a with
  | ⟨0, _⟩ => show win0_3.index t (0 : Fin 2) * 8 + 1 * b.val = b.val; rw [e0]; omega
  | ⟨1, _⟩ => show win0_3.index t (1 : Fin 2) * 4096 + 1 * k.val = k.val; rw [e1]; omega

/-- The mask window at `(b, r)` is the mask bit of point `(b, 512 t + r)`, widened. -/
theorem mask_apply (c : Dev nD) (t : Fin cfg0.N) (b : Fin 8) (r : Fin 512) :
    (iblk m c 4 t : Vec F S8x512 .i32) (ix2 b r)
      = ((m ((c : Thread nD τ).loc main_arg4) : S8x4096.Idx → BitVec 1) (ix2 b (col t r))).setWidth 32 := by
  unfold iblk
  rw [View.read_apply]
  show (V m c main_v0 : S8x4096.Idx → BitVec 32) _ = _
  rw [V_words]
  refine congrArg (fun i => BitVec.setWidth 32 ((m ((c : Thread nD τ).loc main_arg4) : S8x4096.Idx → BitVec 1) i)) ?_
  funext a
  apply Fin.ext
  obtain ⟨-, -, -, -, ⟨e0, e1⟩, -⟩ := idx_facts t
  match a with
  | ⟨0, _⟩ => show win0_4.index t (0 : Fin 2) * 8 + 1 * b.val = b.val; rw [e0]; omega
  | ⟨1, _⟩ => show win0_4.index t (1 : Fin 2) * 512 + 1 * r.val = 512 * t.val + r.val; rw [e1]; omega

end AnyInstance

/-! ## The whole array -/

section AtIdeal

variable (m : (ℓ : Loc nD τ sig) → Buf (Elt Ideal) ℓ)

/-- The points' first coordinates, second coordinates and mask bits, as the kernel is launched with them. -/
abbrev xs (c : Dev nD) : S8x4096.Idx → EReal := m ((c : Thread nD τ).loc main_arg2)
abbrev ys (c : Dev nD) : S8x4096.Idx → EReal := m ((c : Thread nD τ).loc main_arg1)
abbrev vm (c : Dev nD) : S8x4096.Idx → BitVec 1 := m ((c : Thread nD τ).loc main_arg4)

/-- The words the kernel leaves: at each point, the mask bit and "more than eight near points", widened. -/
def keepWords (c : Dev nD) : Buf (Elt Ideal) ((cfg0.win 5).arr.view.loc (c.tc : Thread nD τ)) :=
  fun (i : S8x4096.Idx) =>
    (vm m c i &&& Ideal.cmp .ogt (Cert.Spec.count (xs m c) (ys m c) (i 0) (i 1)) Cert.Spec.eight).setWidth 32

/-- A widened bit is nonzero exactly when the bit is set. -/
theorem ne_zero_setWidth : ∀ a : BitVec 1, IntOp.cmpi .ne (a.setWidth 32) 0#32 = a := by decide

/-- What the body leaves at entry (b, r) of point t's block is the kept word of point (b, 512 t + r). -/
theorem outBlk_keep (c : Dev nD) (t : Fin cfg0.N) (b : Fin 8) (r : Fin 512) :
    outBlk (F := Ideal) m c t (ix2 b r) = keepWords m c (ix2 b (col t r)) := by
  rw [outBlk_apply, mask_apply, xq_apply, yq_apply, ne_zero_setWidth]
  simp only [xk_apply, yk_apply]
  rfl

/-- What point `t` writes back is block `t` of the kept words. -/
theorem flushed_eq (c : Dev nD) (t : Fin cfg0.N) :
    (dats (F := Ideal) m 0 c).flushed 5 t = ((cfg0.win 5).blk t).view.read (Elt Ideal) (keepWords m c) := by
  show (cfg0.win 5).cut (grid0.coords t) ((dats (F := Ideal) m 0 c).after 5 t) = _
  have ha : (dats (F := Ideal) m 0 c).after 5 t = outBlk m c t := by dsimp only [dats]
  rw [ha]
  funext j
  obtain ⟨b, r, rfl⟩ : ∃ (b : Fin 8) (r : Fin 512), j = ix2 b r := ⟨j 0, j 1, eq_ix2 (n0 := 8) (n1 := 512) j⟩
  rw [View.read_apply]
  refine (outBlk_keep m c t b r).trans ?_
  refine congrArg (keepWords m c) ?_
  funext a
  apply Fin.ext
  obtain ⟨-, -, -, -, -, ⟨e0, e1⟩⟩ := idx_facts t
  match a with
  | ⟨0, _⟩ => show b.val = win0_5.index t (0 : Fin 2) * 8 + 1 * b.val; rw [e0]; omega
  | ⟨1, _⟩ => show 512 * t.val + r.val = win0_5.index t (1 : Fin 2) * 512 + 1 * r.val; rw [e1]; omega

/-- An index of the array is in point `t`'s block iff each coordinate is in the block's range on its axis. -/
theorem mem_blk (t : Fin cfg0.N) (i : S8x4096.Idx) :
    i ∈ ((cfg0.win 5).blk t).view.set
      ↔ ∀ a : Fin 2, win0_5.index t a * S8x512.size a ≤ (i a).val ∧ (i a).val < win0_5.index t a * S8x512.size a + S8x512.size a := by
  show i ∈ ((View.whole main_v1).slice (win0_5.rect t)).set ↔ _
  rw [View.set_slice_whole, Rect.mem_set_unit]
  exact Iff.rfl

/-- Every point of the array lies in some written-back block: column `q` in that of point `q / 512`. -/
theorem cover (i : S8x4096.Idx) :
    ∃ t : Fin cfg0.N, (cfg0.win 5).flush t = true ∧ i ∈ ((cfg0.win 5).blk t).view.set := by
  have h0 : (i 0).val < 8 := (i 0).isLt
  have h1 : (i 1).val < 4096 := (i 1).isLt
  let t : Fin cfg0.N := ⟨(i 1).val / 512, lt_of_lt_of_eq (by omega) N_0.symm⟩
  refine ⟨t, flush0_5 t, ?_⟩
  rw [mem_blk]
  obtain ⟨-, -, -, -, -, ⟨e0, e1⟩⟩ := idx_facts t
  have ht : t.val = (i 1).val / 512 := rfl
  intro a
  match a with
  | ⟨0, _⟩ => show win0_5.index t (0 : Fin 2) * 8 ≤ (i 0).val ∧ (i 0).val < win0_5.index t (0 : Fin 2) * 8 + 8; rw [e0]; omega
  | ⟨1, _⟩ => show win0_5.index t (1 : Fin 2) * 512 ≤ (i 1).val ∧ (i 1).val < win0_5.index t (1 : Fin 2) * 512 + 512; rw [e1, ht]; omega

/-- After the last point the output array holds the kept words. -/
theorem final_v1 (c : Dev nD) : (dats (F := Ideal) m 0 c).arrAt 5 cfg0.N = keepWords m c :=
  (dats (F := Ideal) m 0 c).arrAt_eq_of_cover 5 (keepWords m c) (fun t _ => flushed_eq m c t) cover

/-! ## The host tail: a word is nonzero exactly when its bit was set -/

/-- Pointwise: the kept word compared with zero is the kept bit. -/
theorem tail_keep_apply (c : Dev nD) (i : S8x4096.Idx) :
    IntOp.cmpi .ne (keepWords m c i) 0#32 = Cert.Spec.keep (xs m c) (ys m c) (vm m c) i :=
  ne_zero_setWidth _

/-- The tail's comparison of the kept words with the zero array is the specification's kept mask. -/
theorem tail_keep (c : Dev nD) :
    (id (cmpi .ne (keepWords m c) (broadcastInDim S8x4096 ![] bcast_S_S8x4096 (constantI S_ 32 0#32))) : IVec S8x4096 1)
      = Cert.Spec.keep (xs m c) (ys m c) (vm m c) :=
  funext fun i => tail_keep_apply m c i

end AtIdeal

end Cert.KernelIdeal.Final
end
-- ==== Proof.RefConsts.lean ====
/-
  The count's threshold: the single-precision pattern `0x41000000` denotes the real number 8.
-/
import proofs.«133740_j27238682591584_2_alg».proof.Proof.Spec

noncomputable section

namespace Cert.RefConsts

open Idealize.ShloMosaic

/-- The pattern `0x41000000` (sign 0, exponent 130, significand 0) is `2 ^ 3 = 8`. -/
theorem eight_eq : Cert.Spec.eight = ((8 : ℝ) : EReal) := by
  unfold Cert.Spec.eight
  simp [Ideal.ofBits, Ideal.ieee, -EReal.coe_mul]; norm_num

end Cert.RefConsts

end
-- ==== Proof.LibBitCount.lean ====
/-
  Counting with one-bit indicators.  A family of one-bit words, each widened to a 32-bit word and read as a signed
  integer, sums — as real numbers, and as extended reals — to the number of ones among them; and a count below 2³¹,
  written as a 32-bit word, exceeds the word 8 in the signed order exactly when the number exceeds 8.
-/
import Mathlib.Data.EReal.Basic
import Mathlib.Algebra.BigOperators.Ring.Finset

open scoped BigOperators

namespace Cert.Lib.BitCount

/-- A finite sum of reals, cast into the extended reals, is the sum of the casts. -/
theorem coe_sum {ι : Type*} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- A one-bit word widened to 32 bits and read signed is 1 for the bit 1 and 0 for the bit 0. -/
theorem toInt_setWidth : ∀ b : BitVec 1, (b.setWidth 32).toInt = if b = 1#1 then 1 else 0 := by decide

/-- The widened bits, read as extended reals, sum to the number of ones. -/
theorem sum_bits_eq_card {ι : Type*} (S : Finset ι) (w : ι → BitVec 1) :
    ∑ k ∈ S, ((((w k).setWidth 32).toInt : ℝ) : EReal)
      = (((S.filter fun k => w k = 1#1).card : ℝ) : EReal) := by
  rw [← coe_sum]
  congr 1
  simp only [toInt_setWidth, Int.cast_ite, Int.cast_one, Int.cast_zero, Finset.sum_boole]

/-- A number below 2³¹, as a 32-bit word, is above the word 8 in the signed order exactly when it is above 8. -/
theorem slt_eight_ofNat {n : ℕ} (hn : n < 2 ^ 31) : (8#32).slt (BitVec.ofNat 32 n) = decide (8 < n) := by
  have h1 : (BitVec.ofNat 32 n).toNat = n := by
    rw [BitVec.toNat_ofNat]; exact Nat.mod_eq_of_lt (by omega)
  have h2 : (BitVec.ofNat 32 n).toInt = (n : ℤ) := by
    rw [BitVec.toInt_eq_toNat_cond, h1]; rw [if_pos (by omega)]
  have h3 : (8#32 : BitVec 32).toInt = 8 := by decide
  rw [BitVec.slt, h2, h3]
  simp

end Cert.Lib.BitCount
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.RefValue.lean ====
/-
  The reference side.  At the ideal values the reference forms, for every pair of points (q, k) of a batch, the squared
  distance `(x_q - x_k)² + (y_q - y_k)²`, compares it with the radius squared, widens each near bit to a 32-bit word,
  adds the 4096 words of a row from zero, and keeps the point when its mask bit is set and the sum exceeds the word 8 in
  the signed order.  A sum of 4096 zeros and ones is the number of ones, far below 2³¹, so the word comparison is the
  comparison of numbers; and the number of ones is the sum of the near bits read as the reals 0 and 1, which may be
  taken tile by tile, sixteen tiles of 256.  Hence the reference's result is the specification's kept mask.
-/
import proofs.«133740_j27238682591584_2_alg».proof.Proof.Gen.ReferenceIdeal.Read
import proofs.«133740_j27238682591584_2_alg».proof.Proof.Spec
import proofs.«133740_j27238682591584_2_alg».proof.Proof.RefConsts
import proofs.«133740_j27238682591584_2_alg».proof.Proof.LibBitCount
import proofs.«133740_j27238682591584_2_alg».proof.Proof.LibTiles
import Idealize.ShloMosaic.Lib.ValueIdx
import Idealize.ShloMosaic.Lib.Pipeline.Value
import Idealize.ShloMosaic.Lib.IndicatorCount
import Idealize.ShloMosaic.PureOps.Ideal.Laws

noncomputable section

open scoped BigOperators

namespace Cert.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## Indices: the pair array's entry (b, q, k) reads point q along its second axis and point k along its third -/

/-- Summing the pair array over its third axis leaves the (batch, point) array. -/
theorem redH : S8x4096x4096.Reduces [2] S8x4096 := by decide

/-- The entry of the pair array over (b, q) with third coordinate k is (b, q, k). -/
theorem lift_eq (b : Fin 8) (q k : Fin 4096) : redH.lift (ix2 b q) k = ix3 b q k := by
  funext a
  match a with
  | ⟨0, _⟩ => rfl
  | ⟨1, _⟩ => rfl
  | ⟨2, _⟩ => rfl

/-- The column broadcast of x, at (b, q, k), reads x at (b, q). -/
theorem idx_q (b : Fin 8) (q k : Fin 4096) : idx_main_v0 (idx_main_v2 (ix3 b q k)) = ix2 b q := by
  funext a
  match a with
  | ⟨0, _⟩ => rfl
  | ⟨1, _⟩ => rfl

/-- The row broadcast of x, at (b, q, k), reads x at (b, k). -/
theorem idx_k (b : Fin 8) (q k : Fin 4096) : idx_main_v1 (idx_main_v3 (ix3 b q k)) = ix2 b k := by
  funext a
  match a with
  | ⟨0, _⟩ => rfl
  | ⟨1, _⟩ => rfl

/-- The same two readings for y. -/
theorem idx_q' (b : Fin 8) (q k : Fin 4096) : idx_main_v5 (idx_main_v7 (ix3 b q k)) = ix2 b q := idx_q b q k
theorem idx_k' (b : Fin 8) (q k : Fin 4096) : idx_main_v6 (idx_main_v8 (ix3 b q k)) = ix2 b k := idx_k b q k

/-! ## The near bit -/

/-- The reference's comparison at (b, q, k) is the specification's near bit: x is the second argument, y the first. -/
theorem v14_at (a1 a2 : FVec Ideal S8x4096 .f32) (b : Fin 8) (q k : Fin 4096) :
    val_main_v14 (F := Ideal) a1 a2 (ix3 b q k) = Cert.Spec.near a2 a1 b q k := by
  rw [val_main_v14_apply, val_main_v12_apply, val_main_v10_apply, val_main_v11_apply, val_main_v4_apply, val_main_v9_apply,
    val_main_v2_apply, val_main_v3_apply, val_main_v7_apply, val_main_v8_apply, val_main_v0_apply, val_main_v1_apply,
    val_main_v5_apply, val_main_v6_apply, val_main_v13_apply, val_main_cst_apply]
  rw [idx_q, idx_k, idx_q', idx_k']
  rfl

/-! ## The count -/

/-- The reference's 32-bit sum at (b, q) is the number of near points, as a word: a sum of widened bits from zero
    counts the ones. -/
theorem v16_at (a1 a2 : FVec Ideal S8x4096 .f32) (b : Fin 8) (q : Fin 4096) :
    val_main_v16 (F := Ideal) a1 a2 (ix2 b q)
      = BitVec.ofNat 32 (Finset.univ.filter fun k : Fin 4096 => Cert.Spec.near a2 a1 b q k = 1#1).card := by
  unfold val_main_v16
  rw [Host.reduce_eq_fold_single IntOp.addi _ _ reducesTo_S8x4096x4096_S8x4096_d2 redH h_S_ (ix2 b q)]
  have e : (val_main_v15 (F := Ideal) a1 a2 ∘ redH.lift (ix2 b q))
      = fun k : Fin 4096 => (Cert.Spec.near a2 a1 b q k).setWidth 32 := by
    refine funext fun (k : Fin 4096) => ?_
    show val_main_v15 (F := Ideal) a1 a2 (redH.lift (ix2 b q) k) = _
    rw [lift_eq b q k, val_main_v15_apply, v14_at]
  rw [e]
  exact IndicatorCount.fold_addi_setWidth_eq_card _ _

/-- The specification's tiled real count is the same number: index `j * 256 + l` runs once over the 4096 points as
    `j` runs over the sixteen tiles and `l` over a tile, and the bits read as reals sum to the number of ones. -/
theorem count_eq_card (x y : Cert.Spec.Pts.Idx → EReal) (b : Fin 8) (q : Fin 4096) :
    Cert.Spec.count x y b q
      = (((Finset.univ.filter fun k : Fin 4096 => Cert.Spec.near x y b q k = 1#1).card : ℝ) : EReal) := by
  rw [← Cert.Lib.BitCount.sum_bits_eq_card]
  unfold Cert.Spec.count Cert.Spec.tile Cert.Spec.bitReal
  rw [Finset.sum_range]
  refine ((Cert.Lib.Tiles.sum_tiles 16 256 fun k : Fin 4096 =>
    (((((Cert.Spec.near x y b q k).setWidth 32).toInt : ℝ) : EReal))).trans ?_).symm
  refine Finset.sum_congr rfl fun j _ => Finset.sum_congr rfl fun l _ => ?_
  have hc : Cert.Spec.cand j.val l = ⟨j.val * 256 + l.val, Cert.Lib.Tiles.tile_lt j l⟩ :=
    Fin.ext (Nat.mod_eq_of_lt (Cert.Lib.Tiles.tile_lt j l))
  rw [hc]

/-! ## The kept mask -/

/-- At (b, q): the mask bit, and "more than eight near points" — said of the 32-bit count by the reference, of the
    real count by the specification; the count is at most 4096, so the two comparisons agree. -/
theorem result_at (a1 a2 : FVec Ideal S8x4096 .f32) (a4 : IVec S8x4096 1) (b : Fin 8) (q : Fin 4096) :
    val_main_v19 (F := Ideal) a1 a2 a4 (ix2 b q) = Cert.Spec.keep a2 a1 a4 (ix2 b q) := by
  rw [val_main_v19_apply, val_main_v18_apply, val_main_v17_apply, val_main_c_0_apply, v16_at]
  show IntOp.andi (a4 (ix2 b q)) _
    = a4 (ix2 b q) &&& Ideal.cmp .ogt (Cert.Spec.count a2 a1 b q) Cert.Spec.eight
  rw [count_eq_card, Cert.RefConsts.eight_eq]
  have hN : (Finset.univ.filter fun k : Fin 4096 => Cert.Spec.near a2 a1 b q k = 1#1).card < 2 ^ 31 :=
    lt_of_le_of_lt (Finset.card_filter_le _ _) (by rw [Finset.card_univ, Fintype.card_fin]; norm_num)
  show a4 (ix2 b q) &&& BitVec.ofBool ((8#32).slt (BitVec.ofNat 32 _))
    = a4 (ix2 b q) &&& BitVec.ofBool (decide (((8 : ℝ) : EReal) < _))
  rw [Cert.Lib.BitCount.slt_eight_ofNat hN]
  congr 2
  refine decide_eq_decide.mpr ?_
  rw [EReal.coe_lt_coe_iff]
  constructor <;> intro h <;> exact_mod_cast h

/-- The reference's result, as the run states it, is the specification's kept mask (x the second argument, y the
    first, the mask the fourth). -/
theorem result_eq (a1 a2 : FVec Ideal S8x4096 .f32) (a4 : IVec S8x4096 1) :
    andi a4 (cmpi .sgt (Host.reduce IntOp.addi (extui 32 (cmpf .ole (addf (mulf (subf (broadcastInDim S8x4096x4096 ![0, 1, 2] bcast_S8x4096x1_S8x4096x4096_0_1_2 (broadcastInDim S8x4096x1 ![0, 1] bcast_S8x4096_S8x4096x1_0_1 a2)) (broadcastInDim S8x4096x4096 ![0, 1, 2] bcast_S8x1x4096_S8x4096x4096_0_1_2 (broadcastInDim S8x1x4096 ![0, 2] bcast_S8x4096_S8x1x4096_0_2 a2))) (subf (broadcastInDim S8x4096x4096 ![0, 1, 2] bcast_S8x4096x1_S8x4096x4096_0_1_2 (broadcastInDim S8x4096x1 ![0, 1] bcast_S8x4096_S8x4096x1_0_1 a2)) (broadcastInDim S8x4096x4096 ![0, 1, 2] bcast_S8x1x4096_S8x4096x4096_0_1_2 (broadcastInDim S8x1x4096 ![0, 2] bcast_S8x4096_S8x1x4096_0_2 a2)))) (mulf (subf (broadcastInDim S8x4096x4096 ![0, 1, 2] bcast_S8x4096x1_S8x4096x4096_0_1_2 (broadcastInDim S8x4096x1 ![0, 1] bcast_S8x4096_S8x4096x1_0_1 a1)) (broadcastInDim S8x4096x4096 ![0, 1, 2] bcast_S8x1x4096_S8x4096x4096_0_1_2 (broadcastInDim S8x1x4096 ![0, 2] bcast_S8x4096_S8x1x4096_0_2 a1))) (subf (broadcastInDim S8x4096x4096 ![0, 1, 2] bcast_S8x4096x1_S8x4096x4096_0_1_2 (broadcastInDim S8x4096x1 ![0, 1] bcast_S8x4096_S8x4096x1_0_1 a1)) (broadcastInDim S8x4096x4096 ![0, 1, 2] bcast_S8x1x4096_S8x4096x4096_0_1_2 (broadcastInDim S8x1x4096 ![0, 2] bcast_S8x4096_S8x1x4096_0_2 a1))))) (broadcastInDim S8x4096x4096 ![] bcast_S_S8x4096x4096 (constant (F := Ideal) S_ .f32 0x3C23D70A#32))) natLt_1_32) (constantI S_ 32 0#32) reducesTo_S8x4096x4096_S8x4096_d2 h_S_) (broadcastInDim S8x4096 ![] bcast_S_S8x4096 (constantI S_ 32 8#32)))
      = Cert.Spec.keep a2 a1 a4 := by
  rw [val_main_v19_eq]
  funext i
  obtain ⟨b, q, rfl⟩ : ∃ b q, i = ix2 b q := ⟨i 0, i 1, eq_ix2 i⟩
  exact result_at a1 a2 a4 b q

end Cert.RefValue

end
-- ==== Proof.lean ====
/-
  The certificate's claims, assembled.

  The kernel counts, for each of 8 × 4096 planar points, the points of its batch within a fixed radius — sixteen tiles of
  256 candidates, each tile's near bits read as the reals 0 and 1 and added to a running total — and keeps a point when
  its mask bit is set and the total exceeds eight; the reference forms the same near bits over all 4096 candidates at
  once, adds them as 32-bit integers and compares with the integer 8.  On the extended reals the near bits are the same
  bits on both sides (the same operations in the same order, so no finiteness is needed), a sum of at most 4096 zeros and
  ones is the same number whether added as reals or as 32-bit words, and grouping it by tiles does not change it: both
  programs end with the same kept mask, and every argument array as it was.

  The three frames: each kernel program runs to its end through the pipeline's launch (one host operation, the region,
  four host operations) with every argument read back unchanged; the reference is a straight line of host operations.
  The idealization rewrote nothing, so `preserves` has nothing to state.
-/
import proofs.«133740_j27238682591584_2_alg».proof.Defs
import proofs.«133740_j27238682591584_2_alg».proof.Proof.Gen.Kernel
import proofs.«133740_j27238682591584_2_alg».proof.Proof.Gen.KernelIdeal
import proofs.«133740_j27238682591584_2_alg».proof.Proof.Gen.ReferenceIdeal
import proofs.«133740_j27238682591584_2_alg».proof.Proof.Gen.ReferenceIdeal.Run
import proofs.«133740_j27238682591584_2_alg».proof.Proof.Gen.ReferenceIdeal.Read
import proofs.«133740_j27238682591584_2_alg».proof.Proof.Gen.Pre_finite_inputs
import proofs.«133740_j27238682591584_2_alg».proof.Proof.Launch
import proofs.«133740_j27238682591584_2_alg».proof.Proof.LaunchK
import proofs.«133740_j27238682591584_2_alg».proof.Proof.Final
import proofs.«133740_j27238682591584_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end with every argument unchanged. -/
theorem frame_k : Cert.frame_Kernel := fun m ρ _ =>
  (θ_run (Cert.Kernel.defs (F := Bits)) _ _).mono
    (fun _ h c => ⟨(h c).1, (h c).2.1, (h c).2.2.1, (h c).2.2.2.1, (h c).2.2.2.2.1, (h c).2.2.2.2.2.1⟩)
    (Cert.Kernel.Hand.run_main (F := Bits) m ρ)

/-- So does its reading on the extended reals. -/
theorem frame_ki : Cert.frame_KernelIdeal := fun m ρ _ =>
  (θ_run (Cert.KernelIdeal.defs (F := Ideal)) _ _).mono
    (fun _ h c => ⟨(h c).1, (h c).2.1, (h c).2.2.1, (h c).2.2.2.1, (h c).2.2.2.2.1, (h c).2.2.2.2.2.1⟩)
    (Cert.KernelIdeal.Hand.run_main (F := Ideal) m ρ)

/-- The reference is a straight line of host operations: its run with the result dropped. -/
theorem frame_ri : Cert.frame_ReferenceIdeal := fun m ρ _ =>
  (θ_run (Cert.ReferenceIdeal.defs (F := Ideal)) _ _).mono (fun _ h c => (h c).2.2.2.2.2.2)
    (Cert.ReferenceIdeal.Value.run (F := Ideal) m ρ)

/-- Both programs end with the kept mask of the specification, over arguments that agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => Cert.Spec.keep (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg5), ?_, ?_⟩
  · refine (θ_run (Cert.KernelIdeal.defs (F := Ideal)) _ _).mono (fun _ h c => ?_) (Cert.KernelIdeal.Hand.run_main (F := Ideal) m ρ)
    obtain ⟨h0, h1, h2, h3, h4, h5, hv⟩ := h c
    refine ⟨h0, h1, h2, h3, ?_, h5, h0, h1, h2, h3, h4, h5⟩
    rw [hv, Cert.KernelIdeal.Final.final_v1]
    exact Cert.KernelIdeal.Final.tail_keep m c
  · refine (θ_run (Cert.ReferenceIdeal.defs (F := Ideal)) _ _).mono (fun _ h c => ?_) (Cert.ReferenceIdeal.Value.run (F := Ideal) m' ρ')
    obtain ⟨g0, g1, g2, g3, gv, g5, -, -, -, -, g4, -⟩ := h c
    obtain ⟨a0, a1, a2, a3, a4, a5⟩ := hagree c
    refine ⟨g0.trans a0, g1.trans a1, g2.trans a2, g3.trans a3, ?_, g5.trans a5, g0, g1, g2, g3, g4, g5⟩
    rw [gv, a1, a2, a4]
    exact Cert.RefValue.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
